-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S1600000x128 : Shape := ⟨2, ![1600000, 128]⟩
abbrev S1x128 : Shape := ⟨2, ![1, 128]⟩
abbrev S5000x128 : Shape := ⟨2, ![5000, 128]⟩
abbrev S5000x2 : Shape := ⟨2, ![5000, 2]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 95
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x1, .f32⟩
  | .hbm, ⟨45, _⟩ => ⟨S100000x2, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x64, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x64, .f32⟩
  | .hbm, ⟨89, _⟩ => ⟨S_, .f32⟩
  | .hbm, ⟨90, _⟩ => ⟨S100000x64, .f32⟩
  | .hbm, ⟨91, _⟩ => ⟨S1600000x1, .i32⟩
  | .hbm, ⟨92, _⟩ => ⟨S100000x64, .f32⟩
  | .hbm, ⟨93, _⟩ => ⟨S1x64, .f32⟩
  | .hbm, ⟨94, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x2, .f32⟩
  | .local _ .vmem, ⟨3, _⟩ => ⟨S5000x2, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x2, .f32⟩
  | .local _ .vmem, ⟨11, _⟩ => ⟨S5000x2, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x2, .f32⟩
  | .local _ .vmem, ⟨19, _⟩ => ⟨S5000x2, .f32⟩
  | .local _ .vmem, ⟨20, _⟩ => ⟨S128x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x2, .f32⟩
  | .local _ .vmem, ⟨26, _⟩ => ⟨S5000x2, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_9 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_c_12 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_14 : Ref sig .tc := ⟨.hbm, 80, rfl⟩
abbrev main_v51 : Ref sig .tc := ⟨.hbm, 81, rfl⟩
abbrev main_v52 : Ref sig .tc := ⟨.hbm, 82, rfl⟩
abbrev main_c_15 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x2_S5000x1_0_1 : ∀ a, (![0, 1] : Fin 2 → Nat) a + S5000x1.size a ≤ S5000x2.size a
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S100000x2.size a
  hwx2_1 : ∀ i : grid2.Coords, EltTy.bits .f32 = 32 ∨ (Rect.block (s := S100000x2) S5000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x2.size a ≤ S100000x2.size a
  hwx3_1 : ∀ i : grid3.Coords, EltTy.bits .f32 = 32 ∨ (Rect.block (s := S100000x2) S5000x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v35) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S5000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x128, .f32⟩
  | .hbm, ⟨107, _⟩ => ⟨S_, .f32⟩
  | .hbm, ⟨108, _⟩ => ⟨S100000x128, .f32⟩
  | .hbm, ⟨109, _⟩ => ⟨S1600000x1, .i32⟩
  | .hbm, ⟨110, _⟩ => ⟨S100000x128, .f32⟩
  | .hbm, ⟨111, _⟩ => ⟨S100000x1, .f32⟩
  | .hbm, ⟨112, _⟩ => ⟨S100000x128, .f32⟩
  | .hbm, ⟨113, _⟩ => ⟨S100000x128, .f32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call3_cst : Ref sig .tc := ⟨.hbm, 92, rfl⟩
abbrev main_call3_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel program's run with its RESULT named.  The program is eleven segments (host stretches and four
  pipelined regions); the buffer contents at each segment boundary are a fold from the launch memory, and the last
  boundary's contents hold every unscoped buffer when the run ends.  The frame states that for the argument arrays only;
  read at the result buffer, the same run says the result array ends at the last boundary's contents of that buffer.
-/
import proofs.«161044_j32607391711820_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last segment boundary's
    contents and the arguments as launched. -/
theorem run_result : θ_run defs (onTc (τ := τ) (main (F := F))) ⟨m, fun _ => 0, ρ⟩ (fun r => ∀ c : Dev nD,
      r.2.mem ((c.tc : Thread nD τ).loc main_v62) = W11 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v62 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.ResultRun

end
-- ==== Proof.GraphSpec.lean ====
/-
  The four dense stages of the three-layer graph convolution, each as ONE function of whole arrays, index by index,
  over the extended reals.  A node array has one row per node (100000 rows); `deg` has two columns per node: column 0 the
  in-degree factor (inverse square root of the number of edges ending at the node, or 0), column 1 the out-degree factor.
  Every stage reads only row `i 0` of its node arrays, so a block of rows of the result is the same function of the
  same block of rows of the operands.
-/
import Idealize.ShloMosaic.PureOps.Ideal
import Idealize.ShloMosaic.Lib.ValueIdx

noncomputable section

namespace Cert.GraphSpec

open Idealize.ShloMosaic Idealize.ShloMosaic.ValueIdx

/-- node features, 128 wide -/
abbrev A128 : Shape := ⟨2, ![100000, 128]⟩
/-- node features, 64 wide -/
abbrev A64 : Shape := ⟨2, ![100000, 64]⟩
/-- the two degree factors of every node -/
abbrev A2 : Shape := ⟨2, ![100000, 2]⟩
abbrev M128 : Shape := ⟨2, ![128, 128]⟩
abbrev M64 : Shape := ⟨2, ![128, 64]⟩
abbrev R128 : Shape := ⟨2, ![1, 128]⟩
abbrev R64 : Shape := ⟨2, ![1, 64]⟩

/-- Layer 1: the aggregated rows scaled by the in-degree factor, times the weights, plus the bias, rectified, then
    scaled by the out-degree factor (ready to be aggregated by the next layer). -/
def layer1 (agg : A128.Idx → EReal) (deg : A2.Idx → EReal) (W : M128.Idx → EReal) (b : R128.Idx → EReal) :
    A128.Idx → EReal := fun i =>
  max ((∑ k : Fin 128, (agg (ix2 (i 0) k) * deg (ix2 (i 0) 0)) * W (ix2 k (i 1))) + b (ix2 0 (i 1))) 0 * deg (ix2 (i 0) 1)

/-- Layer 2: as layer 1 without the final scaling. -/
def layer2 (agg : A128.Idx → EReal) (deg : A2.Idx → EReal) (W : M128.Idx → EReal) (b : R128.Idx → EReal) :
    A128.Idx → EReal := fun i =>
  max ((∑ k : Fin 128, (agg (ix2 (i 0) k) * deg (ix2 (i 0) 0)) * W (ix2 k (i 1))) + b (ix2 0 (i 1))) 0

/-- Layer 3 before the aggregation: the rows times the weights, scaled by the out-degree factor. -/
def layer3pre (h : A128.Idx → EReal) (deg : A2.Idx → EReal) (W : M64.Idx → EReal) : A64.Idx → EReal := fun i =>
  (∑ k : Fin 128, h (ix2 (i 0) k) * W (ix2 k (i 1))) * deg (ix2 (i 0) 1)

/-- Layer 3 after the aggregation: scaled by the in-degree factor, plus the bias. -/
def layer3post (agg : A64.Idx → EReal) (deg : A2.Idx → EReal) (b : R64.Idx → EReal) : A64.Idx → EReal := fun i =>
  agg i * deg (ix2 (i 0) 0) + b (ix2 0 (i 1))

end Cert.GraphSpec

end
-- ==== Proof.Region0.lean ====
/-
  Layer 1 on blocks of rows. The region walks the 100000 node rows in 20 blocks of 5000. For one block it scales the
  aggregated rows by the in-degree factor, multiplies by the 128 × 128 weights, adds the bias row, rectifies and scales
  by the out-degree factor. Entry (r, q) of the result depends only on row r of the node arrays, so the 20 blocks
  written back, which tile the rows exactly, make up `GraphSpec.layer1` of the whole operand arrays.
-/
import proofs.«161044_j32607391711820_2_alg».proof.Proof.Gen.KernelIdeal.Frame
import proofs.«161044_j32607391711820_2_alg».proof.Proof.GraphSpec
import Idealize.ShloMosaic.Lib.Pipeline.Value
import Idealize.ShloMosaic.Lib.ValueIdx
import Idealize.ShloMosaic.PureOps.Ideal.Laws

noncomputable section

open scoped BigOperators

namespace Cert.KernelIdeal.Region0

open Cert.KernelIdeal Cert.KernelIdeal.Gen Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

/-! ## One entry of the block the body stores

The body works on a block of 5000 rows. Entry (p, q) of what it stores depends on row p of the aggregated block, on
the two degree factors of row p, on column q of the weights and on entry q of the bias row. -/

/-- A column of 5000 entries spread over 128 columns reads, at (p, q), the column's entry p. -/
theorem spread_col (v : FVec Ideal S5000x1 .f32) (p : Fin 5000) (q : Fin 128) :
    broadcastTo S5000x128 v broadcasts_S5000x1_S5000x128 (ix2 p q) = v (ix2 p 0) :=
  broadcastTo_apply v broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A row of 128 entries spread over 5000 rows reads, at (p, q), the row's entry q. -/
theorem spread_row (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The product's dimension numbers: rows of the left factor against columns of the right one. -/
abbrev DD : DotDims S5000x128 S128x128 S5000x128 := dot_S5000x128_S128x128_S5000x128_1_0_0_1_n_n

theorem lhs_row (i : S5000x128.Idx) (k : DD.contr.Idx) : (DD.lhsIdx i k 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl
theorem lhs_col (i : S5000x128.Idx) (k : DD.contr.Idx) : (DD.lhsIdx i k 1).val = (k ⟨0, by decide⟩).val :=
  DD.lhsIdx_val_of_single rfl i k
theorem rhs_row (i : S5000x128.Idx) (k : DD.contr.Idx) : (DD.rhsIdx i k 0).val = (k ⟨0, by decide⟩).val :=
  DD.rhsIdx_val_of_single rfl i k
theorem rhs_col (i : S5000x128.Idx) (k : DD.contr.Idx) : (DD.rhsIdx i k 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- The matrix product into a zero accumulator: entry (p, q) is the sum over k of A(p, k) · B(k, q). -/
theorem product_apply (A : FVec Ideal S5000x128 .bf16) (B : FVec Ideal S128x128 .bf16) (p : Fin 5000) (q : Fin 128) :
    matmul DD none A B (constant (F := Ideal) S5000x128 .f32 0x00000000#32) (ix2 p q) = ∑ k : Fin 128, A (ix2 p k) * B (ix2 k q) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_row _ _
    | ⟨1, _⟩ => exact (lhs_col _ _).trans hk)
  have er : DD.rhsIdx (ix2 p q) ((contrEquiv1 DD 128 rfl rfl).symm k) = ix2 k q := funext fun a => Fin.ext (by
    match a with
    | ⟨0, _⟩ => exact (rhs_row _ _).trans hk
    | ⟨1, _⟩ => exact rhs_col _ _)
  rw [el, er]

/-- Entry (p, q) of the stored block, from the five values the body loads. -/
theorem pay_apply (v0 : Vec Ideal S5000x128 .f32) (v2 : Vec Ideal S5000x1 .f32) (v7 : Vec Ideal S128x128 .f32)
    (v10 : Vec Ideal S1x128 .f32) (v16 : Vec Ideal S5000x1 .f32) (p : Fin 5000) (q : Fin 128) :
    k0_pay1 v0 v2 v7 v10 v16 (ix2 p q)
      = max ((∑ k : Fin 128, (v0 (ix2 p k) * v2 (ix2 p 0)) * v7 (ix2 k q)) + v10 (ix2 0 q)) 0 * v16 (ix2 p 0) := by
  unfold k0_pay1
  simp only [shapeCast_self]
  rw [mulf_apply, maximumf_apply, addf_apply, broadcast_apply, spread_col, spread_row, product_apply]
  simp only [truncf_apply, mulf_apply, spread_col]
  rw [show FloatOps.ofBits (F := Ideal) .f32 0x00000000#32 = (0 : EReal) from Ideal.ofBits_zero_f32]

/-- The first column of a block of degree factors, read at row p, is the block at (p, 0). -/
theorem col0_apply (x1 : Vec Ideal S5000x2 .f32) (p : Fin 5000) : View.ld x1 r0_1 (ix2 p 0) = x1 (ix2 p 0) :=
  congrArg x1 (funext fun a => Fin.ext (match a with
    | ⟨0, _⟩ => by show 0 + 1 * p.val = p.val; omega
    | ⟨1, _⟩ => by show 0 + 1 * 0 = 0; rfl))

/-- The second column, read at row p, is the block at (p, 1). -/
theorem col1_apply (x1 : Vec Ideal S5000x2 .f32) (p : Fin 5000) : View.ld x1 r0_4 (ix2 p 0) = x1 (ix2 p 1) :=
  congrArg x1 (funext fun a => Fin.ext (match a with
    | ⟨0, _⟩ => by show 0 + 1 * p.val = p.val; omega
    | ⟨1, _⟩ => by show 1 + 1 * 0 = 1; rfl))

/-- Entry (p, q) of the output block after the body, from the four input blocks: row p of the aggregated block scaled
    by the in-degree factor of row p, times column q of the weights, plus the bias, rectified, scaled by the
    out-degree factor of row p. -/
theorem out_apply (x0 : Vec Ideal S5000x128 .f32) (x1 : Vec Ideal S5000x2 .f32) (x2 : Vec Ideal S128x128 .f32)
    (x3 : Vec Ideal S1x128 .f32) (p : Fin 5000) (q : Fin 128) :
    out0_4 x0 x1 x2 x3 (ix2 p q)
      = max ((∑ k : Fin 128, (x0 (ix2 p k) * x1 (ix2 p 0)) * x2 (ix2 k q)) + x3 (ix2 0 q)) 0 * x1 (ix2 p 1) := by
  unfold out0_4
  rw [View.canon_unit_zero hz]
  simp only [View.ld_unit_zero (S := S5000x128) hz, View.ld_unit_zero (S := S128x128) hz, View.ld_unit_zero (S := S1x128) hz]
  rw [pay_apply, col0_apply, col1_apply]

/-! ## From blocks to the array

Grid point t works on rows 5000 t … 5000 t + 4999: its blocks of the aggregated rows, of the degree factors and of the
output are those rows; the weights and the bias row are read whole at every point. -/

variable (V : (c : Dev nD) → (b : Ref sig .tc) → Buf (Elt Ideal) ((c : Thread nD τ).loc b))

/-- The block index of every window at every grid point: the row windows are at row block t, column block 0; the
    weights and the bias are at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry x of the aggregated rows' block at point t is the array's entry in row 5000 t + x₀, column x₁. -/
theorem agg_blk (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_v35 : S100000x128.Idx → EReal) k := by
  obtain ⟨e0, e1, -⟩ := idx_facts t
  unfold iblk0
  rw [View.read_apply]
  show V c main_v35 _ = V c main_v35 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- Entry x of the degree factors' block at point t is the array's entry in row 5000 t + x₀, column x₁. -/
theorem deg_blk (c : Dev nD) (t : Fin cfg0.N) (x : S5000x2.Idx) (k : S100000x2.Idx)
    (hk0 : (k 0).val = 5000 * t.val + (x 0).val) (hk1 : (k 1).val = (x 1).val) :
    (iblk0 V c 1 t : Vec Ideal S5000x2 .f32) x = (V c main_v22 : S100000x2.Idx → EReal) k := by
  obtain ⟨-, -, e0, e1, -⟩ := idx_facts t
  unfold iblk0
  rw [View.read_apply]
  show V c main_v22 _ = V c main_v22 _
  congr 1
  funext a
  apply Fin.ext
  match a with
  | ⟨0, _⟩ => show win0_1.index t 0 * 5000 + 1 * (x 0).val = (k 0).val; rw [e0, hk0]; omega
  | ⟨1, _⟩ => show win0_1.index t 1 * 2 + 1 * (x 1).val = (k 1).val; rw [e1, hk1]; omega

/-- The weights' block at every point is the whole array. -/
theorem wts_blk (c : Dev nD) (t : Fin cfg0.N) (x : S128x128.Idx) :
    (iblk0 V c 2 t : Vec Ideal S128x128 .f32) x = (V c main_arg1 : S128x128.Idx → EReal) x := by
  obtain ⟨-, -, -, -, e0, e1, -⟩ := idx_facts t
  unfold iblk0
  rw [View.read_apply]
  show V c main_arg1 _ = V c main_arg1 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The bias row's block at every point is the whole row. -/
theorem bias_blk (c : Dev nD) (t : Fin cfg0.N) (x : S1x128.Idx) :
    (iblk0 V c 3 t : Vec Ideal S1x128 .f32) x = (V c main_v36 : S1x128.Idx → EReal) x := by
  obtain ⟨-, -, -, -, -, -, e0, e1, -⟩ := idx_facts t
  unfold iblk0
  rw [View.read_apply]
  show V c main_v36 _ = V c main_v36 _
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

/-- The layer's result over the whole arrays as the region finds them. -/
abbrev G (c : Dev nD) : S100000x128.Idx → EReal :=
  Cert.GraphSpec.layer1 (V c main_v35) (V c main_v22) (V c main_arg1) (V c main_v36)

/-- What point t writes back is rows 5000 t … 5000 t + 4999 of the layer's result. -/
theorem flushed_eq (c : Dev nD) (t : Fin cfg0.N) :
    (dat0 (F := Ideal) V c).flushed 4 t = ((cfg0.win 4).blk t).view.read (Elt Ideal) (G V c) := by
  show (cfg0.win 4).cut (grid0.coords t) ((dat0 V c).after 4 t) = _
  rw [after0_4]
  obtain ⟨-, -, -, -, -, -, -, -, e0, e1⟩ := idx_facts t
  refine funext fun (j : S5000x128.Idx) => ?_
  obtain ⟨p, q, rfl⟩ : ∃ (p : Fin 5000) (q : Fin 128), j = ix2 p q := ⟨j 0, j 1, eq_ix2 j⟩
  show out0_4 (iblk0 V c 0 t) (iblk0 V c 1 t) (iblk0 V c 2 t) (iblk0 V c 3 t) (ix2 p q)
    = G V c (((cfg0.win 4).blk t).view.emb (ix2 p q))
  rw [out_apply]
  generalize hi : ((cfg0.win 4).blk t).view.emb (ix2 p q) = i
  have hi0 : (i 0).val = 5000 * t.val + p.val := by
    rw [← hi]; show win0_4.index t 0 * 5000 + 1 * p.val = _; rw [e0]; omega
  have hi1 : (i 1).val = q.val := by
    rw [← hi]; show win0_4.index t 1 * 128 + 1 * q.val = _; rw [e1]; omega
  have hq : i 1 = q := Fin.ext hi1
  have ea : ∀ k : Fin 128, (iblk0 V c 0 t : Vec Ideal S5000x128 .f32) (ix2 p k) = (V c main_v35 : S100000x128.Idx → EReal) (ix2 (i 0) k) :=
    fun k => agg_blk V c t _ _ hi0 rfl
  have ed0 : (iblk0 V c 1 t : Vec Ideal S5000x2 .f32) (ix2 p 0) = (V c main_v22 : S100000x2.Idx → EReal) (ix2 (i 0) 0) :=
    deg_blk V c t _ _ hi0 rfl
  have ed1 : (iblk0 V c 1 t : Vec Ideal S5000x2 .f32) (ix2 p 1) = (V c main_v22 : S100000x2.Idx → EReal) (ix2 (i 0) 1) :=
    deg_blk V c t _ _ hi0 rfl
  simp only [ea, ed0, ed1, wts_blk, bias_blk]
  rw [← hq]
  rfl

/-- An index of the array is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v37).slice (win0_4.rect t)).set ↔ _
  rw [View.set_slice_whole, Rect.mem_set_unit]
  exact Iff.rfl

/-- Every row r is in the block of point r / 5000, and every point writes its block back. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨-, -, -, -, -, -, -, -, e0, e1⟩ := idx_facts t
  have ht : t.val = (i 0).val / 5000 := rfl
  refine ⟨t, flush0_4 t, ?_⟩
  rw [mem_blk]
  intro a
  match a with
  | ⟨0, _⟩ => show win0_4.index t 0 * 5000 ≤ (i 0).val ∧ (i 0).val < win0_4.index t 0 * 5000 + 5000; rw [e0, ht]; omega
  | ⟨1, _⟩ => show win0_4.index t 1 * 128 ≤ (i 1).val ∧ (i 1).val < win0_4.index t 1 * 128 + 128; rw [e1]; omega

/-- After all 20 points the output array is the layer's result of the operand arrays. -/
theorem value (c : Dev nD) :
    (dat0 (F := Ideal) V c).arrAt 4 cfg0.N = Cert.GraphSpec.layer1 (V c main_v35) (V c main_v22) (V c main_arg1) (V c main_v36) :=
  (dat0 (F := Ideal) V c).arrAt_eq_of_cover 4 (G V c) (fun t _ => flushed_eq V c t) cover

/-! ## The arrays behind the five windows -/

theorem arrRef_0 : Pipeline.arrRef spec0 0 = main_v35 := rfl
theorem arrRef_1 : Pipeline.arrRef spec0 1 = main_v22 := rfl
theorem arrRef_2 : Pipeline.arrRef spec0 2 = main_arg1 := rfl
theorem arrRef_3 : Pipeline.arrRef spec0 3 = main_v36 := rfl
theorem arrRef_4 : Pipeline.arrRef spec0 4 = main_v37 := rfl

end Cert.KernelIdeal.Region0

end
-- ==== Proof.Region1.lean ====
/-
  Layer 2 on blocks of rows. The region walks the 100000 node rows in 20 blocks of 5000. For one block it scales the
  aggregated rows by the in-degree factor, multiplies by the 128 × 128 weights, adds the bias row and rectifies.
  Entry (r, q) of the result depends only on row r of the node arrays, so the 20 blocks written back, which tile the
  rows exactly, make up `GraphSpec.layer2` of the whole operand arrays.
-/
import proofs.«161044_j32607391711820_2_alg».proof.Proof.Gen.KernelIdeal.Frame
import proofs.«161044_j32607391711820_2_alg».proof.Proof.GraphSpec
import Idealize.ShloMosaic.Lib.Pipeline.Value
import Idealize.ShloMosaic.Lib.ValueIdx
import Idealize.ShloMosaic.PureOps.Ideal.Laws

noncomputable section

open scoped BigOperators

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

/-! ## One entry of the block the body stores

The body works on a block of 5000 rows. Entry (p, q) of what it stores depends on row p of the aggregated block, on
the in-degree factor of row p, on column q of the weights and on entry q of the bias row. -/

/-- A column of 5000 entries spread over 128 columns reads, at (p, q), the column's entry p. -/
theorem spread_col (v : FVec Ideal S5000x1 .f32) (p : Fin 5000) (q : Fin 128) :
    broadcastTo S5000x128 v broadcasts_S5000x1_S5000x128 (ix2 p q) = v (ix2 p 0) :=
  broadcastTo_apply v broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A row of 128 entries spread over 5000 rows reads, at (p, q), the row's entry q. -/
theorem spread_row (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The product's dimension numbers: rows of the left factor against columns of the right one. -/
abbrev DD : DotDims S5000x128 S128x128 S5000x128 := dot_S5000x128_S128x128_S5000x128_1_0_0_1_n_n

theorem lhs_row (i : S5000x128.Idx) (k : DD.contr.Idx) : (DD.lhsIdx i k 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl
theorem lhs_col (i : S5000x128.Idx) (k : DD.contr.Idx) : (DD.lhsIdx i k 1).val = (k ⟨0, by decide⟩).val :=
  DD.lhsIdx_val_of_single rfl i k
theorem rhs_row (i : S5000x128.Idx) (k : DD.contr.Idx) : (DD.rhsIdx i k 0).val = (k ⟨0, by decide⟩).val :=
  DD.rhsIdx_val_of_single rfl i k
theorem rhs_col (i : S5000x128.Idx) (k : DD.contr.Idx) : (DD.rhsIdx i k 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- The matrix product into a zero accumulator: entry (p, q) is the sum over k of A(p, k) · B(k, q). -/
theorem product_apply (A : FVec Ideal S5000x128 .bf16) (B : FVec Ideal S128x128 .bf16) (p : Fin 5000) (q : Fin 128) :
    matmul DD none A B (constant (F := Ideal) S5000x128 .f32 0x00000000#32) (ix2 p q) = ∑ k : Fin 128, A (ix2 p k) * B (ix2 k q) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_row _ _
    | ⟨1, _⟩ => exact (lhs_col _ _).trans hk)
  have er : DD.rhsIdx (ix2 p q) ((contrEquiv1 DD 128 rfl rfl).symm k) = ix2 k q := funext fun a => Fin.ext (by
    match a with
    | ⟨0, _⟩ => exact (rhs_row _ _).trans hk
    | ⟨1, _⟩ => exact rhs_col _ _)
  rw [el, er]

/-- Entry (p, q) of the stored block, from the four values the body loads. -/
theorem pay_apply (v0 : Vec Ideal S5000x128 .f32) (v2 : Vec Ideal S5000x1 .f32) (v7 : Vec Ideal S128x128 .f32)
    (v10 : Vec Ideal S1x128 .f32) (p : Fin 5000) (q : Fin 128) :
    k1_pay1 v0 v2 v7 v10 (ix2 p q)
      = max ((∑ k : Fin 128, (v0 (ix2 p k) * v2 (ix2 p 0)) * v7 (ix2 k q)) + v10 (ix2 0 q)) 0 := by
  unfold k1_pay1
  simp only [shapeCast_self]
  rw [maximumf_apply, addf_apply, broadcast_apply, spread_row, product_apply]
  simp only [truncf_apply, mulf_apply, spread_col]
  rw [show FloatOps.ofBits (F := Ideal) .f32 0x00000000#32 = (0 : EReal) from Ideal.ofBits_zero_f32]

/-- The first column of a block of degree factors, read at row p, is the block at (p, 0). -/
theorem col0_apply (x1 : Vec Ideal S5000x2 .f32) (p : Fin 5000) : View.ld x1 r1_1 (ix2 p 0) = x1 (ix2 p 0) :=
  congrArg x1 (funext fun a => Fin.ext (match a with
    | ⟨0, _⟩ => by show 0 + 1 * p.val = p.val; omega
    | ⟨1, _⟩ => by show 0 + 1 * 0 = 0; rfl))

/-- Entry (p, q) of the output block after the body, from the four input blocks: row p of the aggregated block scaled
    by the in-degree factor of row p, times column q of the weights, plus the bias, rectified. -/
theorem out_apply (x0 : Vec Ideal S5000x128 .f32) (x1 : Vec Ideal S5000x2 .f32) (x2 : Vec Ideal S128x128 .f32)
    (x3 : Vec Ideal S1x128 .f32) (p : Fin 5000) (q : Fin 128) :
    out1_4 x0 x1 x2 x3 (ix2 p q)
      = max ((∑ k : Fin 128, (x0 (ix2 p k) * x1 (ix2 p 0)) * x2 (ix2 k q)) + x3 (ix2 0 q)) 0 := by
  unfold out1_4
  rw [View.canon_unit_zero hz]
  simp only [View.ld_unit_zero (S := S5000x128) hz, View.ld_unit_zero (S := S128x128) hz, View.ld_unit_zero (S := S1x128) hz]
  rw [pay_apply, col0_apply]

/-! ## From blocks to the array

Grid point t works on rows 5000 t … 5000 t + 4999: its blocks of the aggregated rows, of the degree factors and of the
output are those rows; the weights and the bias row are read whole at every point. -/

variable (V : (c : Dev nD) → (b : Ref sig .tc) → Buf (Elt Ideal) ((c : Thread nD τ).loc b))

/-- The block index of every window at every grid point: the row windows are at row block t, column block 0; the
    weights and the bias are at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry x of the aggregated rows' block at point t is the array's entry in row 5000 t + x₀, column x₁. -/
theorem agg_blk (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v47 : S100000x128.Idx → EReal) k := by
  obtain ⟨e0, e1, -⟩ := idx_facts t
  unfold iblk1
  rw [View.read_apply]
  show V c main_v47 _ = V c main_v47 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Entry x of the degree factors' block at point t is the array's entry in row 5000 t + x₀, column x₁. -/
theorem deg_blk (c : Dev nD) (t : Fin cfg1.N) (x : S5000x2.Idx) (k : S100000x2.Idx)
    (hk0 : (k 0).val = 5000 * t.val + (x 0).val) (hk1 : (k 1).val = (x 1).val) :
    (iblk1 V c 1 t : Vec Ideal S5000x2 .f32) x = (V c main_v22 : S100000x2.Idx → EReal) k := by
  obtain ⟨-, -, e0, e1, -⟩ := idx_facts t
  unfold iblk1
  rw [View.read_apply]
  show V c main_v22 _ = V c main_v22 _
  congr 1
  funext a
  apply Fin.ext
  match a with
  | ⟨0, _⟩ => show win1_1.index t 0 * 5000 + 1 * (x 0).val = (k 0).val; rw [e0, hk0]; omega
  | ⟨1, _⟩ => show win1_1.index t 1 * 2 + 1 * (x 1).val = (k 1).val; rw [e1, hk1]; omega

/-- The weights' block at every point is the whole array. -/
theorem wts_blk (c : Dev nD) (t : Fin cfg1.N) (x : S128x128.Idx) :
    (iblk1 V c 2 t : Vec Ideal S128x128 .f32) x = (V c main_arg3 : S128x128.Idx → EReal) x := by
  obtain ⟨-, -, -, -, e0, e1, -⟩ := idx_facts t
  unfold iblk1
  rw [View.read_apply]
  show V c main_arg3 _ = V c main_arg3 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The bias row's block at every point is the whole row. -/
theorem bias_blk (c : Dev nD) (t : Fin cfg1.N) (x : S1x128.Idx) :
    (iblk1 V c 3 t : Vec Ideal S1x128 .f32) x = (V c main_v48 : S1x128.Idx → EReal) x := by
  obtain ⟨-, -, -, -, -, -, e0, e1, -⟩ := idx_facts t
  unfold iblk1
  rw [View.read_apply]
  show V c main_v48 _ = V c main_v48 _
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The layer's result over the whole arrays as the region finds them. -/
abbrev G (c : Dev nD) : S100000x128.Idx → EReal :=
  Cert.GraphSpec.layer2 (V c main_v47) (V c main_v22) (V c main_arg3) (V c main_v48)

/-- What point t writes back is rows 5000 t … 5000 t + 4999 of the layer's result. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 V c).after 4 t) = _
  rw [after1_4]
  obtain ⟨-, -, -, -, -, -, -, -, e0, e1⟩ := idx_facts t
  refine funext fun (j : S5000x128.Idx) => ?_
  obtain ⟨p, q, rfl⟩ : ∃ (p : Fin 5000) (q : Fin 128), j = ix2 p q := ⟨j 0, j 1, eq_ix2 j⟩
  show out1_4 (iblk1 V c 0 t) (iblk1 V c 1 t) (iblk1 V c 2 t) (iblk1 V c 3 t) (ix2 p q)
    = G V c (((cfg1.win 4).blk t).view.emb (ix2 p q))
  rw [out_apply]
  generalize hi : ((cfg1.win 4).blk t).view.emb (ix2 p q) = i
  have hi0 : (i 0).val = 5000 * t.val + p.val := by
    rw [← hi]; show win1_4.index t 0 * 5000 + 1 * p.val = _; rw [e0]; omega
  have hi1 : (i 1).val = q.val := by
    rw [← hi]; show win1_4.index t 1 * 128 + 1 * q.val = _; rw [e1]; omega
  have hq : i 1 = q := Fin.ext hi1
  have ea : ∀ k : Fin 128, (iblk1 V c 0 t : Vec Ideal S5000x128 .f32) (ix2 p k) = (V c main_v47 : S100000x128.Idx → EReal) (ix2 (i 0) k) :=
    fun k => agg_blk V c t _ _ hi0 rfl
  have ed0 : (iblk1 V c 1 t : Vec Ideal S5000x2 .f32) (ix2 p 0) = (V c main_v22 : S100000x2.Idx → EReal) (ix2 (i 0) 0) :=
    deg_blk V c t _ _ hi0 rfl
  simp only [ea, ed0, wts_blk, bias_blk]
  rw [← hq]
  rfl

/-- An index of the array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v49).slice (win1_4.rect t)).set ↔ _
  rw [View.set_slice_whole, Rect.mem_set_unit]
  exact Iff.rfl

/-- Every row r is in the block of point r / 5000, and every point writes its block back. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨-, -, -, -, -, -, -, -, e0, e1⟩ := idx_facts t
  have ht : t.val = (i 0).val / 5000 := rfl
  refine ⟨t, flush1_4 t, ?_⟩
  rw [mem_blk]
  intro a
  match a with
  | ⟨0, _⟩ => show win1_4.index t 0 * 5000 ≤ (i 0).val ∧ (i 0).val < win1_4.index t 0 * 5000 + 5000; rw [e0, ht]; omega
  | ⟨1, _⟩ => show win1_4.index t 1 * 128 ≤ (i 1).val ∧ (i 1).val < win1_4.index t 1 * 128 + 128; rw [e1]; omega

/-- After all 20 points the output array is the layer's result of the operand arrays. -/
theorem value (c : Dev nD) :
    (dat1 (F := Ideal) V c).arrAt 4 cfg1.N = Cert.GraphSpec.layer2 (V c main_v47) (V c main_v22) (V c main_arg3) (V c main_v48) :=
  (dat1 (F := Ideal) V c).arrAt_eq_of_cover 4 (G V c) (fun t _ => flushed_eq V c t) cover

/-! ## The arrays behind the five windows -/

theorem arrRef_0 : Pipeline.arrRef spec1 0 = main_v47 := rfl
theorem arrRef_1 : Pipeline.arrRef spec1 1 = main_v22 := rfl
theorem arrRef_2 : Pipeline.arrRef spec1 2 = main_arg3 := rfl
theorem arrRef_3 : Pipeline.arrRef spec1 3 = main_v48 := rfl
theorem arrRef_4 : Pipeline.arrRef spec1 4 = main_v49 := rfl

end Cert.KernelIdeal.Region1

end
-- ==== Proof.Region2.lean ====
/-
  Layer 3 before the aggregation, block by block.  The 100000 rows are worked in 20 blocks of 5000: the block at
  position t takes rows 5000 t … 5000 t + 4999 of the hidden rows and of the degree factors, and the whole 128 × 64
  weight matrix, and gives the same rows of the result.  Entry (p, q) of a result block is row p of the block of hidden
  rows against column q of the weights (a sum of 128 products), times the out-degree factor of row p: it depends on
  row p only, so the 20 result blocks put together are `GraphSpec.layer3pre` of the whole arrays.
-/
import proofs.«161044_j32607391711820_2_alg».proof.Proof.Gen.KernelIdeal.Frame
import proofs.«161044_j32607391711820_2_alg».proof.Proof.GraphSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

/-- The two zero offsets of a whole-block access, however spelt. -/
theorem hz : (![0, 0] : Fin 2 → Nat) = fun _ => 0 := funext fun a => by fin_cases a <;> rfl

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product's operand indices -/

/-- The product of a `[5000, 128]` block by the `[128, 64]` weights contracts the block's columns with the weights'
    rows: at result entry `j` and contraction position `k` the left factor is entry `(j 0, k)` … -/
theorem lhs_0 (j : S5000x64.Idx) (k : dot_S5000x128_S128x64_S5000x64_1_0_0_1_n_n.contr.Idx) :
    (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs_1 (j : S5000x64.Idx) (k : dot_S5000x128_S128x64_S5000x64_1_0_0_1_n_n.contr.Idx) :
    (dot_S5000x128_S128x64_S5000x64_1_0_0_1_n_n.lhsIdx j k 1).val = (k ⟨0, by decide⟩).val :=
  dot_S5000x128_S128x64_S5000x64_1_0_0_1_n_n.lhsIdx_val_of_single rfl j k
/-- … and the right factor is entry `(k, j 1)`. -/
theorem rhs_0 (j : S5000x64.Idx) (k : dot_S5000x128_S128x64_S5000x64_1_0_0_1_n_n.contr.Idx) :
    (dot_S5000x128_S128x64_S5000x64_1_0_0_1_n_n.rhsIdx j k 0).val = (k ⟨0, by decide⟩).val :=
  dot_S5000x128_S128x64_S5000x64_1_0_0_1_n_n.rhsIdx_val_of_single rfl j k
theorem rhs_1 (j : S5000x64.Idx) (k : dot_S5000x128_S128x64_S5000x64_1_0_0_1_n_n.contr.Idx) :
    (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## One block: the entry of the output block at row `p`, column `q` -/

/-- Column 1 of a block of degree factors (the out-degree factor), read at row `p`. -/
theorem ld_col1 (x1 : Vec Ideal S5000x2 .f32) (p : Fin 5000) :
    View.ld x1 r2_2 (ix2 p (0 : Fin 1)) = x1 (ix2 p 1) := by
  show x1 (r2_2.toLoadRect.idx (ix2 p (0 : Fin 1))) = _
  refine congrArg x1 (funext fun a => Fin.ext ?_)
  match a with
  | ⟨0, _⟩ => show 0 + 1 * p.val = p.val; omega
  | ⟨1, _⟩ => rfl

/-- Entry `(p, q)` of the product of a block of rows by the weights: row `p` of the block against column `q`. -/
theorem product (a : FVec Ideal S5000x128 .f32) (w : FVec Ideal S128x64 .f32) (p : Fin 5000) (q : Fin 64) :
    matmul (F := Ideal) dot_S5000x128_S128x64_S5000x64_1_0_0_1_n_n none (truncf (F := Ideal) .bf16 a bitsLt_bf16_f32)
        (truncf (F := Ideal) .bf16 w bitsLt_bf16_f32) (constant (F := Ideal) S5000x64 .f32 0x00000000#32) (ix2 p q)
      = ∑ k : Fin 128, a (ix2 p k) * w (ix2 k q) := by
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k :=
    funext fun ax => Fin.ext (by
      match ax with
      | ⟨0, _⟩ => exact lhs_0 _ _
      | ⟨1, _⟩ => exact (lhs_1 _ _).trans hk)
  have er : dot_S5000x128_S128x64_S5000x64_1_0_0_1_n_n.rhsIdx (ix2 p q)
      ((contrEquiv1 dot_S5000x128_S128x64_S5000x64_1_0_0_1_n_n 128 rfl rfl).symm k) = ix2 k q :=
    funext fun ax => Fin.ext (by
      match ax with
      | ⟨0, _⟩ => exact (rhs_0 _ _).trans hk
      | ⟨1, _⟩ => exact rhs_1 _ _)
  rw [truncf_apply, truncf_apply, el, er]

/-- Entry `(p, q)` of the output block is row `p` of the block of rows against column `q` of the weights, scaled by
    row `p`'s out-degree factor: it depends on row `p` of the node blocks only. -/
theorem payload (x0 : Vec Ideal S5000x128 .f32) (x1 : Vec Ideal S5000x2 .f32) (x2 : Vec Ideal S128x64 .f32)
    (p : Fin 5000) (q : Fin 64) :
    out2_3 x0 x1 x2 (ix2 p q) = (∑ k : Fin 128, x0 (ix2 p k) * x2 (ix2 k q)) * x1 (ix2 p 1) := by
  unfold out2_3
  rw [View.canon_unit_zero hz]
  simp only [View.ld_unit_zero (S := S5000x128) hz, View.ld_unit_zero (S := S128x64) hz]
  unfold k2_pay1
  simp only [shapeCast_self]
  rw [mulf_apply, broadcastTo_a1_ab_apply, ld_col1, product]

/-! ## The blocks over the grid -/

/-- Point `t` of the 20 works on block row `t` of every node array (rows `5000 t` to `5000 t + 4999`) and on the
    whole weight matrix. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- WHAT POINT `t` WRITES BACK is block `t` of the whole-array function of the operand arrays as the region finds them. -/
theorem flushed_eq (c : Dev nD) (t : Fin cfg2.N) :
    (dat2 (F := Ideal) V c).flushed 3 t
      = ((cfg2.win 3).blk t).view.read (Elt Ideal) (Cert.GraphSpec.layer3pre (V c main_v49) (V c main_v22) (V c main_arg5)) := by
  show (cfg2.win 3).cut (grid2.coords t) ((dat2 V c).after 3 t) = _
  rw [after2_3]
  obtain ⟨e00, e01, e10, e11, e20, e21, e30, e31⟩ := idx_facts t
  funext j
  obtain ⟨p, q, rfl⟩ : ∃ (p : Fin 5000) (q : Fin 64), j = ix2 p q := ⟨j 0, j 1, eq_ix2 j⟩
  show out2_3 (iblk2 V c 0 t) (iblk2 V c 1 t) (iblk2 V c 2 t) (ix2 p q)
    = Cert.GraphSpec.layer3pre (V c main_v49) (V c main_v22) (V c main_arg5) (((cfg2.win 3).blk t).view.emb (ix2 p q))
  refine (payload _ _ _ p q).trans ?_
  -- entry (p, k) of the block of rows is entry (5000 t + p, k) of the array
  have h0 : ∀ k : Fin 128, @Eq Cert.GraphSpec.A128.Idx (((cfg2.win 0).blk t).view.emb (ix2 p k))
      (ix2 ((((cfg2.win 3).blk t).view.emb (ix2 p q)) 0) k) := fun k => by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  -- row p of the block of degree factors is row 5000 t + p of the array
  have h1 : @Eq Cert.GraphSpec.A2.Idx (((cfg2.win 1).blk t).view.emb (ix2 p 1))
      (ix2 ((((cfg2.win 3).blk t).view.emb (ix2 p q)) 0) 1) := by
    funext a; apply Fin.ext
    match a with
    | ⟨0, _⟩ => show win2_1.index t (0 : Fin 2) * 5000 + 1 * p.val = win2_3.index t (0 : Fin 2) * 5000 + 1 * p.val; omega
    | ⟨1, _⟩ => show win2_1.index t (1 : Fin 2) * 2 + 1 * 1 = 1; omega
  -- the weights' one block is the whole matrix
  have h2 : ∀ k : Fin 128, @Eq Cert.GraphSpec.M64.Idx (((cfg2.win 2).blk t).view.emb (ix2 k q))
      (ix2 k ((((cfg2.win 3).blk t).view.emb (ix2 p q)) 1)) := fun k => by
    funext a; apply Fin.ext
    match a with
    | ⟨0, _⟩ => show win2_2.index t (0 : Fin 2) * 128 + 1 * k.val = k.val; omega
    | ⟨1, _⟩ => show win2_2.index t (1 : Fin 2) * 64 + 1 * q.val = win2_3.index t (1 : Fin 2) * 64 + 1 * q.val; omega
  have key : ∀ (H : Cert.GraphSpec.A128.Idx → EReal) (D : Cert.GraphSpec.A2.Idx → EReal) (W : Cert.GraphSpec.M64.Idx → EReal),
      (∑ k : Fin 128, H (((cfg2.win 0).blk t).view.emb (ix2 p k)) * W (((cfg2.win 2).blk t).view.emb (ix2 k q)))
          * D (((cfg2.win 1).blk t).view.emb (ix2 p 1))
        = Cert.GraphSpec.layer3pre H D W (((cfg2.win 3).blk t).view.emb (ix2 p q)) := by
    intro H D W
    rw [h1]
    refine congrArg (· * _) (Finset.sum_congr rfl fun k _ => ?_)
    rw [h0 k, h2 k]
  exact key (V c main_v49) (V c main_v22) (V c main_arg5)

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v50).slice (win2_3.rect t)).set ↔ _
  rw [View.set_slice_whole, Rect.mem_set_unit]
  exact Iff.rfl

/-- The 20 blocks of 5000 rows cover the 100000 rows: row `r` is in the block of point `r / 5000`, and every point
    writes its block back. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 5000 < 20 := by omega
  obtain ⟨-, -, -, -, -, -, e30, e31⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ (1 : Fin 2) * 64 ≤ (i 1).val ∧ (i 1).val < win2_3.index ⟨(i 0).val / 5000, ht⟩ (1 : Fin 2) * 64 + 64
    rw [e31]; omega

/-- THE OUTPUT ARRAY after all 20 points: the whole-array function of the operand arrays as the region finds them. -/
theorem value (c : Dev nD) :
    (dat2 (F := Ideal) V c).arrAt 3 cfg2.N
      = Cert.GraphSpec.layer3pre (V c main_v49) (V c main_v22) (V c main_arg5) :=
  (dat2 V c).arrAt_eq_of_cover 3 _ (fun t _ => flushed_eq V c t) cover

/-- The region's arrays, window by window. -/
theorem arrRef_0 : Pipeline.arrRef spec2 0 = main_v49 := rfl
theorem arrRef_1 : Pipeline.arrRef spec2 1 = main_v22 := rfl
theorem arrRef_2 : Pipeline.arrRef spec2 2 = main_arg5 := rfl
theorem arrRef_3 : Pipeline.arrRef spec2 3 = main_v50 := rfl

end Cert.KernelIdeal.Region2

end
-- ==== Proof.Region3.lean ====
/-
  Layer 3 after the aggregation, block by block.  The 100000 rows are worked in 20 blocks of 5000: the block at
  position t takes rows 5000 t … 5000 t + 4999 of the aggregated rows and of the degree factors, and the whole bias
  row, and gives the same rows of the result.  Entry (p, q) of a result block is entry (p, q) of the aggregated block
  times the in-degree factor of row p, plus entry q of the bias: it depends on row p only, so the 20 result blocks
  put together are `GraphSpec.layer3post` of the whole arrays.
-/
import proofs.«161044_j32607391711820_2_alg».proof.Proof.Gen.KernelIdeal.Frame
import proofs.«161044_j32607391711820_2_alg».proof.Proof.GraphSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

/-- The two zero offsets of a whole-block access, however spelt. -/
theorem hz : (![0, 0] : Fin 2 → Nat) = fun _ => 0 := funext fun a => by fin_cases a <;> rfl

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One block: the entry of the output block at row `p`, column `q` -/

/-- Column 0 of a block of degree factors (the in-degree factor), read at row `p`. -/
theorem ld_col0 (x1 : Vec Ideal S5000x2 .f32) (p : Fin 5000) :
    View.ld x1 r3_1 (ix2 p (0 : Fin 1)) = x1 (ix2 p 0) := by
  show x1 (r3_1.toLoadRect.idx (ix2 p (0 : Fin 1))) = _
  refine congrArg x1 (funext fun a => Fin.ext ?_)
  match a with
  | ⟨0, _⟩ => show 0 + 1 * p.val = p.val; omega
  | ⟨1, _⟩ => rfl

/-- Entry `(p, q)` of the output block is entry `(p, q)` of the aggregated block scaled by row `p`'s in-degree
    factor, plus entry `q` of the bias row: it depends on row `p` of the node blocks only. -/
theorem payload (x0 : Vec Ideal S5000x64 .f32) (x1 : Vec Ideal S5000x2 .f32) (x2 : Vec Ideal S1x64 .f32)
    (p : Fin 5000) (q : Fin 64) :
    out3_3 x0 x1 x2 (ix2 p q) = x0 (ix2 p q) * x1 (ix2 p 0) + x2 (ix2 0 q) := by
  unfold out3_3
  rw [View.canon_unit_zero hz]
  simp only [View.ld_unit_zero (S := S5000x64) hz, View.ld_unit_zero (S := S1x64) hz]
  unfold k3_pay1
  simp only [shapeCast_self]
  rw [addf_apply, mulf_apply, broadcastTo_a1_ab_apply, broadcastTo_1b_ab_apply, ld_col0]

/-! ## The blocks over the grid -/

/-- Point `t` of the 20 works on block row `t` of every node array (rows `5000 t` to `5000 t + 4999`) and on the
    whole bias row. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- WHAT POINT `t` WRITES BACK is block `t` of the whole-array function of the operand arrays as the region finds them. -/
theorem flushed_eq (c : Dev nD) (t : Fin cfg3.N) :
    (dat3 (F := Ideal) V c).flushed 3 t
      = ((cfg3.win 3).blk t).view.read (Elt Ideal) (Cert.GraphSpec.layer3post (V c main_v60) (V c main_v22) (V c main_v61)) := by
  show (cfg3.win 3).cut (grid3.coords t) ((dat3 V c).after 3 t) = _
  rw [after3_3]
  obtain ⟨e00, e01, e10, e11, e20, e21, e30, e31⟩ := idx_facts t
  funext j
  obtain ⟨p, q, rfl⟩ : ∃ (p : Fin 5000) (q : Fin 64), j = ix2 p q := ⟨j 0, j 1, eq_ix2 j⟩
  show out3_3 (iblk3 V c 0 t) (iblk3 V c 1 t) (iblk3 V c 2 t) (ix2 p q)
    = Cert.GraphSpec.layer3post (V c main_v60) (V c main_v22) (V c main_v61) (((cfg3.win 3).blk t).view.emb (ix2 p q))
  refine (payload _ _ _ p q).trans ?_
  have h0 : @Eq Cert.GraphSpec.A64.Idx (((cfg3.win 0).blk t).view.emb (ix2 p q))
      (((cfg3.win 3).blk t).view.emb (ix2 p q)) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * q.val = win3_3.index t (1 : Fin 2) * 64 + 1 * q.val; omega
  have h1 : @Eq Cert.GraphSpec.A2.Idx (((cfg3.win 1).blk t).view.emb (ix2 p 0))
      (ix2 ((((cfg3.win 3).blk t).view.emb (ix2 p q)) 0) 0) := by
    funext a; apply Fin.ext
    match a with
    | ⟨0, _⟩ => show win3_1.index t (0 : Fin 2) * 5000 + 1 * p.val = win3_3.index t (0 : Fin 2) * 5000 + 1 * p.val; omega
    | ⟨1, _⟩ => show win3_1.index t (1 : Fin 2) * 2 + 1 * 0 = 0; omega
  have h2 : @Eq Cert.GraphSpec.R64.Idx (((cfg3.win 2).blk t).view.emb (ix2 0 q))
      (ix2 0 ((((cfg3.win 3).blk t).view.emb (ix2 p q)) 1)) := by
    funext a; apply Fin.ext
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega
  have key : ∀ (A : Cert.GraphSpec.A64.Idx → EReal) (D : Cert.GraphSpec.A2.Idx → EReal) (B : Cert.GraphSpec.R64.Idx → EReal),
      A (((cfg3.win 0).blk t).view.emb (ix2 p q)) * D (((cfg3.win 1).blk t).view.emb (ix2 p 0))
          + B (((cfg3.win 2).blk t).view.emb (ix2 0 q))
        = Cert.GraphSpec.layer3post A D B (((cfg3.win 3).blk t).view.emb (ix2 p q)) := by
    intro A D B
    rw [h0, h1, h2]
    rfl
  exact key (V c main_v60) (V c main_v22) (V c main_v61)

/-- An index of the output array is in point `t`'s block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v62).slice (win3_3.rect t)).set ↔ _
  rw [View.set_slice_whole, Rect.mem_set_unit]
  exact Iff.rfl

/-- The 20 blocks of 5000 rows cover the 100000 rows: row `r` is in the block of point `r / 5000`, and every point
    writes its block back. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 5000 < 20 := by omega
  obtain ⟨-, -, -, -, -, -, e30, e31⟩ := idx_facts ⟨(i 0).val / 5000, ht⟩
  refine ⟨⟨(i 0).val / 5000, ht⟩, flush3_3 _, ?_⟩
  rw [mem_blk]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, ht⟩ (1 : Fin 2) * 64 ≤ (i 1).val ∧ (i 1).val < win3_3.index ⟨(i 0).val / 5000, ht⟩ (1 : Fin 2) * 64 + 64
    rw [e31]; omega

/-- THE OUTPUT ARRAY after all 20 points: the whole-array function of the operand arrays as the region finds them. -/
theorem value (c : Dev nD) :
    (dat3 (F := Ideal) V c).arrAt 3 cfg3.N
      = Cert.GraphSpec.layer3post (V c main_v60) (V c main_v22) (V c main_v61) :=
  (dat3 V c).arrAt_eq_of_cover 3 _ (fun t _ => flushed_eq V c t) cover

/-- The region's arrays, window by window. -/
theorem arrRef_0 : Pipeline.arrRef spec3 0 = main_v60 := rfl
theorem arrRef_1 : Pipeline.arrRef spec3 1 = main_v22 := rfl
theorem arrRef_2 : Pipeline.arrRef spec3 2 = main_v61 := rfl
theorem arrRef_3 : Pipeline.arrRef spec3 3 = main_v62 := rfl

end Cert.KernelIdeal.Region3

end
-- ==== Proof.KEntry0.lean ====
/-
  What the first pipelined region finds in its operand arrays, as functions of the launch memory.  Before it the host computes
  the two degree factors of every node (the out-degree factor from the edges' sources, the in-degree factor from their
  destinations), packs them side by side into one two-column array, scales the input features by the out-degree factor and
  aggregates them along the edges.  The reference computes the same factors and the same first aggregation by the same
  operations, so its stage functions name them.
-/
import proofs.«161044_j32607391711820_2_alg».proof.Proof.Gen.KernelIdeal.Frame
import proofs.«161044_j32607391711820_2_alg».proof.Proof.RefRead

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-- The two degree factors side by side: column 0 the in-degree factor, column 1 the out-degree factor. -/
def degPair (inF outF : S100000.Idx → F .f32) : S100000x2.Idx → F .f32 :=
  concatenate S100000x2 1
    [⟨S100000x1, broadcastInDim S100000x1 ![0] bcast_S100000_S100000x1_0 inF⟩,
     ⟨S100000x1, broadcastInDim S100000x1 ![0] bcast_S100000_S100000x1_0 outF⟩]
    concatenates_S100000x1_S100000x1_S100000x2_d1

variable (m : (ℓ : Loc nD τ sig) → Buf (Elt F) ℓ) (ρ : Dev nD → PrngReg)

set_option maxHeartbeats 8000000 in
/-- Region 0 finds the first aggregation of the scaled input features in its first operand. -/
theorem entry0_agg (c : Dev nD) :
    W5 m ρ c (Proc.devRef .tc main_v35)
      = Cert.ReferenceIdeal.Read.val_main_v32 (F := F) (m ((c : Thread nD τ).loc main_arg0)) (m ((c : Thread nD τ).loc main_arg7))
          (m ((c : Thread nD τ).loc main_arg8)) := by
  after_results_simp <;> rfl

set_option maxHeartbeats 8000000 in
/-- Region 0 finds the packed degree factors in its second operand. -/
theorem entry0_deg (c : Dev nD) :
    W5 m ρ c (Proc.devRef .tc main_v22)
      = degPair (Cert.ReferenceIdeal.Read.val_main_v19 (F := F) (m ((c : Thread nD τ).loc main_arg8)))
          (Cert.ReferenceIdeal.Read.val_main_v9 (F := F) (m ((c : Thread nD τ).loc main_arg7))) := by
  after_results_simp <;> rfl

end Cert.KernelIdeal.HostValue

end
-- ==== Proof.KHost.lean ====
/-
  The idealized kernel program's result as ONE term of the launch memory.  Between the four pipelined regions the host
  aggregates node rows along the edges: row `dst e` of the aggregate receives row `src e` of the operand, summed over the
  edges `e`.  The reference aggregates with the same operations, so its stage functions name the edge index arrays
  (a negative source index counted from the end; the destination indices as a column) and the zero array the sums start from.
  Each region's output array is the dense stage of the specification applied to the region's operand arrays (hypotheses
  here: they are proved region by region), and the degree-factor pair and the weights reach every region unchanged.
-/
import proofs.«161044_j32607391711820_2_alg».proof.Proof.KEntry0
import proofs.«161044_j32607391711820_2_alg».proof.Proof.GraphSpec

set_option maxRecDepth 16384

noncomputable section

namespace Cert.KernelIdeal.HostValue

open Cert.KernelIdeal Cert.KernelIdeal.Gen Cert.GraphSpec
open Idealize.ShloMosaic Idealize.ShloMosaic.TcCoe Idealize.SL.Sem Idealize.ShloMosaic.StableHlo

variable {F : FTy → Type} [FloatOps F]

/-- A bias vector as a one-row array. -/
def biasRow128 (b : S128.Idx → F .f32) : S1x128.Idx → F .f32 := shapeCast S1x128 b shapeCasts_S128_S1x128
def biasRow64 (b : S64.Idx → F .f32) : S1x64.Idx → F .f32 := shapeCast S1x64 b shapeCasts_S64_S1x64

/-- Aggregation along the edges of a 128-wide node array: a sum, over the edges ending at each node, of the rows the
    edges start from. -/
def aggregate128 (h : S100000x128.Idx → F .f32) (src dst : S1600000.Idx → BitVec 32) : S100000x128.Idx → F .f32 :=
  Host.scatterAdd Cert.ReferenceIdeal.scatter_S100000x128_S1600000x1_S1600000x128_1_0_0_1 (Cert.ReferenceIdeal.Read.val_main_v51 (F := F)) (Cert.ReferenceIdeal.Read.val_main_v52 (F := F) dst)
    (Host.gather Cert.ReferenceIdeal.gather_S100000x128_S1600000x1_S1600000x128_1_0_n_n_0_1_1128 h (Cert.ReferenceIdeal.Read.val_main_v49 (F := F) src))

/-- The same for a 64-wide node array. -/
def aggregate64 (h : S100000x64.Idx → F .f32) (src dst : S1600000.Idx → BitVec 32) : S100000x64.Idx → F .f32 :=
  Host.scatterAdd scatter_S100000x64_S1600000x1_S1600000x64_1_0_0_1
    (broadcastInDim S100000x64 ![] bcast_S_S100000x64 (constant S_ .f32 0x00000000#32)) (Cert.ReferenceIdeal.Read.val_main_v52 (F := F) dst)
    (Host.gather gather_S100000x64_S1600000x1_S1600000x64_1_0_n_n_0_1_164 h (Cert.ReferenceIdeal.Read.val_main_v49 (F := F) src))

/-! ## The host stretches, each from ANY contents `X` of the buffers it reads -/

set_option maxHeartbeats 4000000 in
theorem stretch1_agg (X : Valuation τ sig (Elt F)) :
    StableHlo.after (hostOps1 (F := F)) X (Proc.devRef .tc main_v47)
      = aggregate128 (X (Proc.devRef .tc main_v37)) (X (Proc.devRef .tc main_arg7)) (X (Proc.devRef .tc main_arg8)) := by
  after_results_simp <;> rfl

set_option maxHeartbeats 4000000 in
theorem stretch1_bias (X : Valuation τ sig (Elt F)) :
    StableHlo.after (hostOps1 (F := F)) X (Proc.devRef .tc main_v48) = biasRow128 (X (Proc.devRef .tc main_arg4)) := by
  after_results_simp <;> rfl

set_option maxHeartbeats 4000000 in
theorem stretch3_agg (X : Valuation τ sig (Elt F)) :
    StableHlo.after (hostOps3 (F := F)) X (Proc.devRef .tc main_v60)
      = aggregate64 (X (Proc.devRef .tc main_v50)) (X (Proc.devRef .tc main_arg7)) (X (Proc.devRef .tc main_arg8)) := by
  after_results_simp <;> rfl

set_option maxHeartbeats 4000000 in
theorem stretch3_bias (X : Valuation τ sig (Elt F)) :
    StableHlo.after (hostOps3 (F := F)) X (Proc.devRef .tc main_v61) = biasRow64 (X (Proc.devRef .tc main_arg6)) := by
  after_results_simp <;> rfl

/-- A buffer no operation of a host stretch writes holds after it what it held before. -/
syntax "host_keeps " ident : tactic
macro_rules
  | `(tactic| host_keeps $ops:ident) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide))))

theorem keep1 (X : Valuation τ sig (Elt F)) (b : Ref sig .tc)
    (hb : b = main_v22 ∨ b = main_arg3 ∨ b = main_arg5 ∨ b = main_arg6 ∨ b = main_arg7 ∨ b = main_arg8) :
    StableHlo.after (hostOps1 (F := F)) X (Proc.devRef .tc b) = X (Proc.devRef .tc b) := by
  rcases hb with rfl | rfl | rfl | rfl | rfl | rfl <;> host_keeps hostOps1

theorem keep3 (X : Valuation τ sig (Elt F)) (b : Ref sig .tc)
    (hb : b = main_v22 ∨ b = main_arg6 ∨ b = main_arg7 ∨ b = main_arg8) :
    StableHlo.after (hostOps3 (F := F)) X (Proc.devRef .tc b) = X (Proc.devRef .tc b) := by
  rcases hb with rfl | rfl | rfl | rfl <;> host_keeps hostOps3

end Cert.KernelIdeal.HostValue

end
-- ==== Proof.KChain.lean ====
/-
  The result buffer at the last segment boundary, as one term of the launch memory: the specification's four dense stages
  alternating with the edge aggregations, over the launch contents of the arguments.  Every region's output array is its
  dense stage of its operand arrays (the hypotheses); the operands are what the previous boundary holds: the previous
  region's output passed through an aggregation, the packed degree factors (which every region only reads), and weights
  and biases, which nothing writes.
-/
import proofs.«161044_j32607391711820_2_alg».proof.Proof.KHost

set_option maxRecDepth 16384

noncomputable section

namespace Cert.KernelIdeal.HostValue

open Cert.KernelIdeal Cert.KernelIdeal.Gen Cert.GraphSpec
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 8000000 in
theorem entry0_bias (c : Dev nD) : W5 m ρ c (Proc.devRef .tc main_v36) = biasRow128 (F := Ideal) (m ((c : Thread nD τ).loc main_arg2)) := by
  after_results_simp <;> rfl

set_option maxHeartbeats 8000000 in
theorem entry_arg1 (c : Dev nD) : W5 m ρ c (Proc.devRef .tc main_arg1) = m ((c : Thread nD τ).loc main_arg1) := by
  after_results_simp <;> rfl

set_option maxHeartbeats 8000000 in
theorem entry_arg3 (c : Dev nD) : W5 m ρ c (Proc.devRef .tc main_arg3) = m ((c : Thread nD τ).loc main_arg3) := by
  after_results_simp <;> rfl

set_option maxHeartbeats 8000000 in
theorem entry_arg4 (c : Dev nD) : W5 m ρ c (Proc.devRef .tc main_arg4) = m ((c : Thread nD τ).loc main_arg4) := by
  after_results_simp <;> rfl

set_option maxHeartbeats 8000000 in
theorem entry_arg5 (c : Dev nD) : W5 m ρ c (Proc.devRef .tc main_arg5) = m ((c : Thread nD τ).loc main_arg5) := by
  after_results_simp <;> rfl

set_option maxHeartbeats 8000000 in
theorem entry_arg6 (c : Dev nD) : W5 m ρ c (Proc.devRef .tc main_arg6) = m ((c : Thread nD τ).loc main_arg6) := by
  after_results_simp <;> rfl

set_option maxHeartbeats 8000000 in
theorem entry_arg7 (c : Dev nD) : W5 m ρ c (Proc.devRef .tc main_arg7) = m ((c : Thread nD τ).loc main_arg7) := by
  after_results_simp <;> rfl

set_option maxHeartbeats 8000000 in
theorem entry_arg8 (c : Dev nD) : W5 m ρ c (Proc.devRef .tc main_arg8) = m ((c : Thread nD τ).loc main_arg8) := by
  after_results_simp <;> rfl

/-- The kernel program's result as a term of the launch memory. -/
def resultTerm (c : Dev nD) : S100000x64.Idx → EReal :=
  (layer3post (aggregate64 (F := Ideal) (layer3pre (layer2 (aggregate128 (F := Ideal) (layer1 (Cert.ReferenceIdeal.Read.val_main_v32 (F := Ideal) (m ((c : Thread nD τ).loc main_arg0)) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg1)) (biasRow128 (F := Ideal) (m ((c : Thread nD τ).loc main_arg2)))) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg3)) (biasRow128 (F := Ideal) (m ((c : Thread nD τ).loc main_arg4)))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg5))) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (biasRow64 (F := Ideal) (m ((c : Thread nD τ).loc main_arg6))))

set_option maxHeartbeats 4000000 in
theorem result_eq
    (hR0 : ∀ (V : (c : Dev nD) → (b : Ref sig .tc) → Buf (Elt Ideal) ((c : Thread nD τ).loc b)) (c : Dev nD),
      (dat0 (F := Ideal) V c).arrAt 4 cfg0.N = layer1 (V c main_v35) (V c main_v22) (V c main_arg1) (V c main_v36))
    (hR1 : ∀ (V : (c : Dev nD) → (b : Ref sig .tc) → Buf (Elt Ideal) ((c : Thread nD τ).loc b)) (c : Dev nD),
      (dat1 (F := Ideal) V c).arrAt 4 cfg1.N = layer2 (V c main_v47) (V c main_v22) (V c main_arg3) (V c main_v48))
    (hR2 : ∀ (V : (c : Dev nD) → (b : Ref sig .tc) → Buf (Elt Ideal) ((c : Thread nD τ).loc b)) (c : Dev nD),
      (dat2 (F := Ideal) V c).arrAt 3 cfg2.N = layer3pre (V c main_v49) (V c main_v22) (V c main_arg5))
    (hR3 : ∀ (V : (c : Dev nD) → (b : Ref sig .tc) → Buf (Elt Ideal) ((c : Thread nD τ).loc b)) (c : Dev nD),
      (dat3 (F := Ideal) V c).arrAt 3 cfg3.N = layer3post (V c main_v60) (V c main_v22) (V c main_v61))
    (c : Dev nD) : W11 m ρ c (Proc.devRef .tc main_v62) = resultTerm m c := by
  -- region 0
  have e37 : W6 m ρ c (Proc.devRef .tc main_v37) = (layer1 (Cert.ReferenceIdeal.Read.val_main_v32 (F := Ideal) (m ((c : Thread nD τ).loc main_arg0)) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg1)) (biasRow128 (F := Ideal) (m ((c : Thread nD τ).loc main_arg2)))) :=
    (W6_arr m ρ c 4).trans ((hR0 _ c).trans (by
      show layer1 (W5 m ρ c (Proc.devRef .tc main_v35)) (W5 m ρ c (Proc.devRef .tc main_v22)) (W5 m ρ c (Proc.devRef .tc main_arg1)) (W5 m ρ c (Proc.devRef .tc main_v36)) = _
      rw [entry0_agg, entry0_deg, entry_arg1, entry0_bias]))
  have e6_22 : W6 m ρ c (Proc.devRef .tc main_v22) = (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) :=
    (show W6 m ρ c (Proc.devRef .tc main_v22) = W5 m ρ c (Proc.devRef .tc main_v22) from
      (W6_arr m ρ c 1).trans (((dat0 (V5 m ρ) c).arrAt_in 1 rfl _).trans (A_eq0 (V5 m ρ) c 1))).trans (entry0_deg m ρ c)
  have e6_3 : W6 m ρ c (Proc.devRef .tc main_arg3) = (m ((c : Thread nD τ).loc main_arg3)) := (W6_of_ne m ρ c main_arg3 (by decide)).trans (entry_arg3 m ρ c)
  have e6_4 : W6 m ρ c (Proc.devRef .tc main_arg4) = (m ((c : Thread nD τ).loc main_arg4)) := (W6_of_ne m ρ c main_arg4 (by decide)).trans (entry_arg4 m ρ c)
  have e6_5 : W6 m ρ c (Proc.devRef .tc main_arg5) = (m ((c : Thread nD τ).loc main_arg5)) := (W6_of_ne m ρ c main_arg5 (by decide)).trans (entry_arg5 m ρ c)
  have e6_6 : W6 m ρ c (Proc.devRef .tc main_arg6) = (m ((c : Thread nD τ).loc main_arg6)) := (W6_of_ne m ρ c main_arg6 (by decide)).trans (entry_arg6 m ρ c)
  have e6_7 : W6 m ρ c (Proc.devRef .tc main_arg7) = (m ((c : Thread nD τ).loc main_arg7)) := (W6_of_ne m ρ c main_arg7 (by decide)).trans (entry_arg7 m ρ c)
  have e6_8 : W6 m ρ c (Proc.devRef .tc main_arg8) = (m ((c : Thread nD τ).loc main_arg8)) := (W6_of_ne m ρ c main_arg8 (by decide)).trans (entry_arg8 m ρ c)
  -- the stretch before region 1
  have e47 : W7 m ρ c (Proc.devRef .tc main_v47) = (aggregate128 (F := Ideal) (layer1 (Cert.ReferenceIdeal.Read.val_main_v32 (F := Ideal) (m ((c : Thread nD τ).loc main_arg0)) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg1)) (biasRow128 (F := Ideal) (m ((c : Thread nD τ).loc main_arg2)))) (m ((c : Thread nD τ).loc main_arg7)) (m ((c : Thread nD τ).loc main_arg8))) :=
    (stretch1_agg (W6 m ρ c)).trans (by rw [e37, e6_7, e6_8])
  have e7_48 : W7 m ρ c (Proc.devRef .tc main_v48) = biasRow128 (F := Ideal) (m ((c : Thread nD τ).loc main_arg4)) := (stretch1_bias (W6 m ρ c)).trans (by rw [e6_4])
  have e7_22 : W7 m ρ c (Proc.devRef .tc main_v22) = (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) := (keep1 (W6 m ρ c) main_v22 (.inl rfl)).trans e6_22
  have e7_3 : W7 m ρ c (Proc.devRef .tc main_arg3) = (m ((c : Thread nD τ).loc main_arg3)) := (keep1 (W6 m ρ c) main_arg3 (.inr (.inl rfl))).trans e6_3
  have e7_5 : W7 m ρ c (Proc.devRef .tc main_arg5) = (m ((c : Thread nD τ).loc main_arg5)) := (keep1 (W6 m ρ c) main_arg5 (.inr (.inr (.inl rfl)))).trans e6_5
  have e7_6 : W7 m ρ c (Proc.devRef .tc main_arg6) = (m ((c : Thread nD τ).loc main_arg6)) := (keep1 (W6 m ρ c) main_arg6 (.inr (.inr (.inr (.inl rfl))))).trans e6_6
  have e7_7 : W7 m ρ c (Proc.devRef .tc main_arg7) = (m ((c : Thread nD τ).loc main_arg7)) := (keep1 (W6 m ρ c) main_arg7 (.inr (.inr (.inr (.inr (.inl rfl)))))).trans e6_7
  have e7_8 : W7 m ρ c (Proc.devRef .tc main_arg8) = (m ((c : Thread nD τ).loc main_arg8)) := (keep1 (W6 m ρ c) main_arg8 (.inr (.inr (.inr (.inr (.inr rfl)))))).trans e6_8
  -- region 1
  have e49 : W8 m ρ c (Proc.devRef .tc main_v49) = (layer2 (aggregate128 (F := Ideal) (layer1 (Cert.ReferenceIdeal.Read.val_main_v32 (F := Ideal) (m ((c : Thread nD τ).loc main_arg0)) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg1)) (biasRow128 (F := Ideal) (m ((c : Thread nD τ).loc main_arg2)))) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg3)) (biasRow128 (F := Ideal) (m ((c : Thread nD τ).loc main_arg4)))) :=
    (W8_arr m ρ c 4).trans ((hR1 _ c).trans (by
      show layer2 (W7 m ρ c (Proc.devRef .tc main_v47)) (W7 m ρ c (Proc.devRef .tc main_v22)) (W7 m ρ c (Proc.devRef .tc main_arg3)) (W7 m ρ c (Proc.devRef .tc main_v48)) = _
      rw [e47, e7_22, e7_3, e7_48]))
  have e8_22 : W8 m ρ c (Proc.devRef .tc main_v22) = (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) :=
    (show W8 m ρ c (Proc.devRef .tc main_v22) = W7 m ρ c (Proc.devRef .tc main_v22) from
      (W8_arr m ρ c 1).trans (((dat1 (V7 m ρ) c).arrAt_in 1 rfl _).trans (A_eq1 (V7 m ρ) c 1))).trans e7_22
  have e8_5 : W8 m ρ c (Proc.devRef .tc main_arg5) = (m ((c : Thread nD τ).loc main_arg5)) := (W8_of_ne m ρ c main_arg5 (by decide)).trans e7_5
  have e8_6 : W8 m ρ c (Proc.devRef .tc main_arg6) = (m ((c : Thread nD τ).loc main_arg6)) := (W8_of_ne m ρ c main_arg6 (by decide)).trans e7_6
  have e8_7 : W8 m ρ c (Proc.devRef .tc main_arg7) = (m ((c : Thread nD τ).loc main_arg7)) := (W8_of_ne m ρ c main_arg7 (by decide)).trans e7_7
  have e8_8 : W8 m ρ c (Proc.devRef .tc main_arg8) = (m ((c : Thread nD τ).loc main_arg8)) := (W8_of_ne m ρ c main_arg8 (by decide)).trans e7_8
  -- region 2
  have e50 : W9 m ρ c (Proc.devRef .tc main_v50) = (layer3pre (layer2 (aggregate128 (F := Ideal) (layer1 (Cert.ReferenceIdeal.Read.val_main_v32 (F := Ideal) (m ((c : Thread nD τ).loc main_arg0)) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg1)) (biasRow128 (F := Ideal) (m ((c : Thread nD τ).loc main_arg2)))) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg3)) (biasRow128 (F := Ideal) (m ((c : Thread nD τ).loc main_arg4)))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg5))) :=
    (W9_arr m ρ c 3).trans ((hR2 _ c).trans (by
      show layer3pre (W8 m ρ c (Proc.devRef .tc main_v49)) (W8 m ρ c (Proc.devRef .tc main_v22)) (W8 m ρ c (Proc.devRef .tc main_arg5)) = _
      rw [e49, e8_22, e8_5]))
  have e9_22 : W9 m ρ c (Proc.devRef .tc main_v22) = (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) :=
    (show W9 m ρ c (Proc.devRef .tc main_v22) = W8 m ρ c (Proc.devRef .tc main_v22) from
      (W9_arr m ρ c 1).trans (((dat2 (V8 m ρ) c).arrAt_in 1 rfl _).trans (A_eq2 (V8 m ρ) c 1))).trans e8_22
  have e9_6 : W9 m ρ c (Proc.devRef .tc main_arg6) = (m ((c : Thread nD τ).loc main_arg6)) := (W9_of_ne m ρ c main_arg6 (by decide)).trans e8_6
  have e9_7 : W9 m ρ c (Proc.devRef .tc main_arg7) = (m ((c : Thread nD τ).loc main_arg7)) := (W9_of_ne m ρ c main_arg7 (by decide)).trans e8_7
  have e9_8 : W9 m ρ c (Proc.devRef .tc main_arg8) = (m ((c : Thread nD τ).loc main_arg8)) := (W9_of_ne m ρ c main_arg8 (by decide)).trans e8_8
  -- the stretch before region 3
  have e60 : W10 m ρ c (Proc.devRef .tc main_v60) = (aggregate64 (F := Ideal) (layer3pre (layer2 (aggregate128 (F := Ideal) (layer1 (Cert.ReferenceIdeal.Read.val_main_v32 (F := Ideal) (m ((c : Thread nD τ).loc main_arg0)) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg1)) (biasRow128 (F := Ideal) (m ((c : Thread nD τ).loc main_arg2)))) (m ((c : Thread nD τ).loc main_arg7)) (m ((c : Thread nD τ).loc main_arg8))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg3)) (biasRow128 (F := Ideal) (m ((c : Thread nD τ).loc main_arg4)))) (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) (m ((c : Thread nD τ).loc main_arg5))) (m ((c : Thread nD τ).loc main_arg7)) (m ((c : Thread nD τ).loc main_arg8))) :=
    (stretch3_agg (W9 m ρ c)).trans (by rw [e50, e9_7, e9_8])
  have e10_61 : W10 m ρ c (Proc.devRef .tc main_v61) = biasRow64 (F := Ideal) (m ((c : Thread nD τ).loc main_arg6)) := (stretch3_bias (W9 m ρ c)).trans (by rw [e9_6])
  have e10_22 : W10 m ρ c (Proc.devRef .tc main_v22) = (degPair (F := Ideal) (Cert.ReferenceIdeal.Read.val_main_v19 (F := Ideal) (m ((c : Thread nD τ).loc main_arg8))) (Cert.ReferenceIdeal.Read.val_main_v9 (F := Ideal) (m ((c : Thread nD τ).loc main_arg7)))) := (keep3 (W9 m ρ c) main_v22 (.inl rfl)).trans e9_22
  -- region 3
  exact (W11_arr m ρ c 3).trans ((hR3 _ c).trans (by
    show layer3post (W10 m ρ c (Proc.devRef .tc main_v60)) (W10 m ρ c (Proc.devRef .tc main_v22)) (W10 m ρ c (Proc.devRef .tc main_v61)) = _
    rw [e60, e10_22, e10_61]; rfl))

end Cert.KernelIdeal.HostValue

end
-- ==== Proof.HostReads.lean ====
/-
  The host-side layout operations read at an index: the packed degree factors give the in-degree factor in column 0 and the
  out-degree factor in column 1; a bias vector reshaped to one row gives its entries; and the reference's three aggregations
  along the edges are one operation applied to three arrays.
-/
import proofs.«161044_j32607391711820_2_alg».proof.Proof.KHost
import Idealize.ShloMosaic.Lib.ValueLayout
import Idealize.ShloMosaic.Lib.IdealHost

set_option maxRecDepth 16384

noncomputable section

namespace Cert.ReferenceIdeal.Layers

open Cert.ReferenceIdeal Cert.ReferenceIdeal.Read Cert.GraphSpec
open Idealize.ShloMosaic Idealize.ShloMosaic.ValueIdx

/-! ## The packed degree factors and the bias row, read at an index -/

theorem degPair_in (inF outF : S100000.Idx → EReal) (r : Fin 100000) :
    Cert.KernelIdeal.HostValue.degPair (F := Ideal) inF outF (ix2 r (0 : Fin 2)) = inF (ix1 r) := by
  unfold Cert.KernelIdeal.HostValue.degPair
  refine (concatenate_pair_apply_left (t := Cert.KernelIdeal.S100000x2) (s₁ := Cert.KernelIdeal.S100000x1) (s₂ := Cert.KernelIdeal.S100000x1)
    (1 : Fin 2) _ _ _ (ix2 r (0 : Fin 2)) rfl (ix2 r (0 : Fin 1)) (fun b => ?_)).trans ?_
  · match b with
    | ⟨0, _⟩ => rfl
    | ⟨1, _⟩ => rfl
  · exact broadcastInDim_apply _ _ inF _ (ix1 r) (fun a => by match a with | ⟨0, _⟩ => rfl)

theorem degPair_out (inF outF : S100000.Idx → EReal) (r : Fin 100000) :
    Cert.KernelIdeal.HostValue.degPair (F := Ideal) inF outF (ix2 r (1 : Fin 2)) = outF (ix1 r) := by
  unfold Cert.KernelIdeal.HostValue.degPair
  refine (concatenate_pair_apply_right (t := Cert.KernelIdeal.S100000x2) (s₁ := Cert.KernelIdeal.S100000x1) (s₂ := Cert.KernelIdeal.S100000x1)
    (1 : Fin 2) _ _ _ (ix2 r (1 : Fin 2)) rfl rfl (ix2 r (0 : Fin 1)) (fun b hb => ?_) rfl).trans ?_
  · match b with
    | ⟨0, _⟩ => rfl
    | ⟨1, _⟩ => exact absurd rfl hb
  · exact broadcastInDim_apply _ _ outF _ (ix1 r) (fun a => by match a with | ⟨0, _⟩ => rfl)

theorem biasRow128_apply (b : S128.Idx → EReal) (q : Fin 128) : Cert.KernelIdeal.HostValue.biasRow128 (F := Ideal) b (ix2 (0 : Fin 1) q) = b (ix1 q) :=
  shapeCast_a_1a_apply b _ 0 q

theorem biasRow64_apply (b : S64.Idx → EReal) (q : Fin 64) : Cert.KernelIdeal.HostValue.biasRow64 (F := Ideal) b (ix2 (0 : Fin 1) q) = b (ix1 q) :=
  shapeCast_a_1a_apply b _ 0 q

variable (x0 : S100000x128.Idx → EReal) (x1 : S128x128.Idx → EReal) (x2 : S128.Idx → EReal) (x3 : S128x128.Idx → EReal)
  (x4 : S128.Idx → EReal) (x5 : S128x64.Idx → EReal) (x6 : S64.Idx → EReal) (x7 x8 : S1600000.Idx → BitVec 32)

theorem agg_first : val_main_v32 (F := Ideal) x0 x7 x8 = Cert.KernelIdeal.HostValue.aggregate128 (F := Ideal) (val_main_v22 (F := Ideal) x0 x7) x7 x8 := rfl
theorem agg_second : val_main_v53 (F := Ideal) x0 x1 x2 x7 x8 = Cert.KernelIdeal.HostValue.aggregate128 (F := Ideal) (val_main_v43 (F := Ideal) x0 x1 x2 x7 x8) x7 x8 := rfl
theorem agg_third : val_main_v74 (F := Ideal) x0 x1 x2 x3 x4 x7 x8 = Cert.KernelIdeal.HostValue.aggregate128 (F := Ideal) (val_main_v64 (F := Ideal) x0 x1 x2 x3 x4 x7 x8) x7 x8 := rfl

end Cert.ReferenceIdeal.Layers

end
-- ==== Proof.RefLayers.lean ====
/-
  The reference's dense stages are the specification's.  Its layer applies, to the aggregated rows, the scaling by the
  in-degree factor, the matrix product with the weights, the bias, the rectification and (folded into the next layer) the
  scaling by the out-degree factor, each as a whole-array operation; read at an index (r, q) these are the specification's
  formula, with the degree factors read from the packed pair and the bias from its one-row form.  Its three aggregations
  are the one edge aggregation, applied to three arrays.
-/
import proofs.«161044_j32607391711820_2_alg».proof.Proof.HostReads
import Idealize.ShloMosaic.Lib.ValueLayout
import Idealize.ShloMosaic.Lib.IdealHost

set_option maxRecDepth 16384

noncomputable section

namespace Cert.ReferenceIdeal.Layers

open Cert.ReferenceIdeal Cert.ReferenceIdeal.Read Cert.GraphSpec
open Idealize.ShloMosaic Idealize.ShloMosaic.ValueIdx

variable (x0 : S100000x128.Idx → EReal) (x1 : S128x128.Idx → EReal) (x2 : S128.Idx → EReal) (x3 : S128x128.Idx → EReal)
  (x4 : S128.Idx → EReal) (x5 : S128x64.Idx → EReal) (x6 : S64.Idx → EReal) (x7 x8 : S1600000.Idx → BitVec 32)

/-! ## Layers 1 and 2 -/

theorem layer1_eq : val_main_v43 (F := Ideal) x0 x1 x2 x7 x8
    = layer1 (val_main_v32 (F := Ideal) x0 x7 x8) (Cert.KernelIdeal.HostValue.degPair (F := Ideal) (val_main_v19 (F := Ideal) x8) (val_main_v9 (F := Ideal) x7)) x1 (Cert.KernelIdeal.HostValue.biasRow128 (F := Ideal) x2) := by
  funext i
  obtain ⟨r, q, rfl⟩ : ∃ (r : Fin 100000) (q : Fin 128), i = ix2 r q := ⟨i 0, i 1, eq_ix2 i⟩
  have e1 : idx_main_v41 (idx_main_v42 (ix2 r q)) = ix1 r := funext fun a => Fin.ext (by match a with | ⟨0, _⟩ => rfl)
  have e2 : idx_main_v37 (idx_main_v38 (ix2 r q)) = ix1 q := funext fun a => Fin.ext (by match a with | ⟨0, _⟩ => rfl)
  have e3 : ∀ k : Fin 128, lidx_main_v36 (ix2 r q) k = ix2 r k := fun k => funext fun a => Fin.ext (by match a with | ⟨0, _⟩ => rfl | ⟨1, _⟩ => rfl)
  have e4 : ∀ k : Fin 128, ridx_main_v36 (ix2 r q) k = ix2 k q := fun k => funext fun a => Fin.ext (by match a with | ⟨0, _⟩ => rfl | ⟨1, _⟩ => rfl)
  have e5 : ∀ k : Fin 128, idx_main_v33 (idx_main_v34 (ix2 r k)) = ix1 r := fun k => funext fun a => Fin.ext (by match a with | ⟨0, _⟩ => rfl)
  have hsum : (∑ k : Fin 128, val_main_v35 (F := Ideal) x0 x7 x8 (lidx_main_v36 (ix2 r q) k) * x1 (ridx_main_v36 (ix2 r q) k))
      = ∑ k : Fin 128, (val_main_v32 (F := Ideal) x0 x7 x8 (ix2 r k) * val_main_v19 (F := Ideal) x8 (ix1 r)) * x1 (ix2 k q) :=
    Finset.sum_congr rfl fun k _ => by
      rw [e3 k, e4 k, val_main_v35_apply, val_main_v34_apply, val_main_v33_apply, e5 k, Ideal.mulf_def]
  rw [val_main_v43_apply, val_main_v42_apply, val_main_v41_apply, val_main_v40_apply, val_main_call2_v0_apply,
    val_main_call2_cst_apply, val_main_v39_apply, val_main_v38_apply, val_main_v37_apply, val_main_v36_apply, hsum, e1, e2]
  generalize val_main_v32 (F := Ideal) x0 x7 x8 = AGG
  generalize val_main_v19 (F := Ideal) x8 = INF
  generalize val_main_v9 (F := Ideal) x7 = OUTF
  show _ = max ((∑ k : Fin 128, (AGG (ix2 r k) * Cert.KernelIdeal.HostValue.degPair (F := Ideal) INF OUTF (ix2 r (0 : Fin 2))) * x1 (ix2 k q))
      + Cert.KernelIdeal.HostValue.biasRow128 (F := Ideal) x2 (ix2 (0 : Fin 1) q)) 0 * Cert.KernelIdeal.HostValue.degPair (F := Ideal) INF OUTF (ix2 r (1 : Fin 2))
  rw [degPair_in, degPair_out, biasRow128_apply, Ideal.mulf_def, Ideal.maximumf_def, Ideal.addf_def, Ideal.ofBits_def, Ideal.ofBits_zero_f32]

theorem layer2_eq : val_main_v61 (F := Ideal) x0 x1 x2 x3 x4 x7 x8
    = layer2 (val_main_v53 (F := Ideal) x0 x1 x2 x7 x8) (Cert.KernelIdeal.HostValue.degPair (F := Ideal) (val_main_v19 (F := Ideal) x8) (val_main_v9 (F := Ideal) x7)) x3 (Cert.KernelIdeal.HostValue.biasRow128 (F := Ideal) x4) := by
  funext i
  obtain ⟨r, q, rfl⟩ : ∃ (r : Fin 100000) (q : Fin 128), i = ix2 r q := ⟨i 0, i 1, eq_ix2 i⟩
  have e2 : idx_main_v58 (idx_main_v59 (ix2 r q)) = ix1 q := funext fun a => Fin.ext (by match a with | ⟨0, _⟩ => rfl)
  have e3 : ∀ k : Fin 128, lidx_main_v57 (ix2 r q) k = ix2 r k := fun k => funext fun a => Fin.ext (by match a with | ⟨0, _⟩ => rfl | ⟨1, _⟩ => rfl)
  have e4 : ∀ k : Fin 128, ridx_main_v57 (ix2 r q) k = ix2 k q := fun k => funext fun a => Fin.ext (by match a with | ⟨0, _⟩ => rfl | ⟨1, _⟩ => rfl)
  have e5 : ∀ k : Fin 128, idx_main_v54 (idx_main_v55 (ix2 r k)) = ix1 r := fun k => funext fun a => Fin.ext (by match a with | ⟨0, _⟩ => rfl)
  have hsum : (∑ k : Fin 128, val_main_v56 (F := Ideal) x0 x1 x2 x7 x8 (lidx_main_v57 (ix2 r q) k) * x3 (ridx_main_v57 (ix2 r q) k))
      = ∑ k : Fin 128, (val_main_v53 (F := Ideal) x0 x1 x2 x7 x8 (ix2 r k) * val_main_v19 (F := Ideal) x8 (ix1 r)) * x3 (ix2 k q) :=
    Finset.sum_congr rfl fun k _ => by
      rw [e3 k, e4 k, val_main_v56_apply, val_main_v55_apply, val_main_v54_apply, e5 k, Ideal.mulf_def]
  rw [val_main_v61_apply, val_main_call3_v0_apply, val_main_call3_cst_apply, val_main_v60_apply, val_main_v59_apply,
    val_main_v58_apply, val_main_v57_apply, hsum, e2]
  generalize val_main_v53 (F := Ideal) x0 x1 x2 x7 x8 = AGG
  generalize val_main_v19 (F := Ideal) x8 = INF
  generalize val_main_v9 (F := Ideal) x7 = OUTF
  show _ = max ((∑ k : Fin 128, (AGG (ix2 r k) * Cert.KernelIdeal.HostValue.degPair (F := Ideal) INF OUTF (ix2 r (0 : Fin 2))) * x3 (ix2 k q))
      + Cert.KernelIdeal.HostValue.biasRow128 (F := Ideal) x4 (ix2 (0 : Fin 1) q)) 0
  rw [degPair_in, biasRow128_apply, Ideal.maximumf_def, Ideal.addf_def, Ideal.ofBits_def, Ideal.ofBits_zero_f32]

end Cert.ReferenceIdeal.Layers

end
-- ==== Proof.LibRealSums.lean ====
/-
  Pure algebra over the extended reals, for the edge sums of a graph convolution.

  An extended real is REAL when it is neither infinity. Zero, one, sums, products, maxima and finite sums of real
  extended reals are real, and among real extended reals the ordinary laws of a commutative ring hold (they fail in general:
  multiplication does not distribute over addition when an infinity meets a sign change). The law proved here is the one a
  graph convolution needs: multiplying a row by a weight matrix commutes with summing rows over a set of edges, with a
  scaling of every summand and a scaling of the total.
-/
import Mathlib.Data.EReal.Operations
import Mathlib.Algebra.BigOperators.Ring.Finset
import Mathlib.Algebra.BigOperators.Group.Finset.Sigma
import Mathlib.Tactic.Ring

namespace Cert.KernelIdeal.EdgeSum

open scoped BigOperators

/-- An extended real that is an ordinary real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- Real means neither infinity. -/
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (hx : IsReal x) : x ≠ ⊤ := (isReal_iff.1 hx).2

theorem IsReal.ne_bot {x : EReal} (hx : IsReal x) : x ≠ ⊥ := (isReal_iff.1 hx).1

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.min {x y : EReal} (hx : IsReal x) (hy : IsReal y) : IsReal (min x y) := by
  rcases min_choice x y with h | h <;> rw [h] <;> assumption

/-- An extended real whose absolute value (the larger of it and its negation) is below infinity is real. -/
theorem isReal_of_abs_lt_top {x : EReal} (h : max x (-x) < ⊤) : IsReal x := by
  rw [isReal_iff]
  constructor
  · rintro rfl
    simp at h
  · rintro rfl
    simp at h

/-- The coercion of the reals into the extended reals carries a finite sum to the finite sum. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A matrix product passes through a sum over edges and two scalings, when every number involved is real:
    summing over the edges `e ∈ P` the rows `a e ·` times the weights, each scaled by `o e`, then scaling the total
    by `s`, is the same as first summing the scaled rows, scaling by `s`, and multiplying by the weights last. -/
theorem sum_edges_matmul {E : Type} (P : Finset E) (a : E → Fin 128 → EReal) (o : E → EReal) (w : Fin 128 → EReal)
    (s : EReal) (ha : ∀ e k, ∃ r : ℝ, a e k = (r : EReal)) (ho : ∀ e, ∃ r : ℝ, o e = (r : EReal))
    (hw : ∀ k, ∃ r : ℝ, w k = (r : EReal)) (hs : ∃ r : ℝ, s = (r : EReal)) :
    (∑ e ∈ P, (∑ k, a e k * w k) * o e) * s = ∑ k, ((∑ e ∈ P, a e k * o e) * s) * w k := by
  choose a' ha' using ha
  choose o' ho' using ho
  choose w' hw' using hw
  obtain ⟨s', rfl⟩ := hs
  have hL : (∑ e ∈ P, (∑ k, a e k * w k) * o e) * (s' : EReal)
      = (((∑ e ∈ P, (∑ k, a' e k * w' k) * o' e) * s' : ℝ) : EReal) := by
    rw [EReal.coe_mul, coe_finset_sum]
    congr 1
    refine Finset.sum_congr rfl fun e _ => ?_
    rw [EReal.coe_mul, coe_finset_sum, ho' e]
    congr 1
    refine Finset.sum_congr rfl fun k _ => ?_
    rw [EReal.coe_mul, ha' e k, hw' k]
  have hR : ∑ k, ((∑ e ∈ P, a e k * o e) * (s' : EReal)) * w k
      = ((∑ k, ((∑ e ∈ P, a' e k * o' e) * s') * w' k : ℝ) : EReal) := by
    rw [coe_finset_sum]
    refine Finset.sum_congr rfl fun k _ => ?_
    rw [EReal.coe_mul, EReal.coe_mul, coe_finset_sum, hw' k]
    congr 2
    refine Finset.sum_congr rfl fun e _ => ?_
    rw [EReal.coe_mul, ha' e k, ho' e]
  rw [hL, hR]
  congr 1
  simp only [Finset.sum_mul]
  rw [Finset.sum_comm]
  refine Finset.sum_congr rfl fun k _ => Finset.sum_congr rfl fun e _ => ?_
  ring

end Cert.KernelIdeal.EdgeSum
-- ==== Proof.LayerReal.lean ====
/-
  The dense stages of the specification map arrays of real numbers to arrays of real numbers: each entry is a finite
  combination of sums, products and maxima of entries.
-/
import proofs.«161044_j32607391711820_2_alg».proof.Proof.GraphSpec
import proofs.«161044_j32607391711820_2_alg».proof.Proof.LibRealSums

noncomputable section

namespace Cert.GraphSpec

open Idealize.ShloMosaic Idealize.ShloMosaic.ValueIdx Cert.KernelIdeal.EdgeSum

theorem layer1_real {agg : A128.Idx → EReal} {deg : A2.Idx → EReal} {W : M128.Idx → EReal} {b : R128.Idx → EReal}
    (h1 : ∀ i, IsReal (agg i)) (h2 : ∀ i, IsReal (deg i)) (h3 : ∀ i, IsReal (W i)) (h4 : ∀ i, IsReal (b i)) (i : A128.Idx) :
    IsReal (layer1 agg deg W b i) := by
  unfold layer1
  exact ((((IsReal.sum _ _ fun k _ => ((h1 _).mul (h2 _)).mul (h3 _)).add (h4 _)).max isReal_zero).mul (h2 _))

theorem layer2_real {agg : A128.Idx → EReal} {deg : A2.Idx → EReal} {W : M128.Idx → EReal} {b : R128.Idx → EReal}
    (h1 : ∀ i, IsReal (agg i)) (h2 : ∀ i, IsReal (deg i)) (h3 : ∀ i, IsReal (W i)) (h4 : ∀ i, IsReal (b i)) (i : A128.Idx) :
    IsReal (layer2 agg deg W b i) := by
  unfold layer2
  exact (((IsReal.sum _ _ fun k _ => ((h1 _).mul (h2 _)).mul (h3 _)).add (h4 _)).max isReal_zero)

end Cert.GraphSpec

end
-- ==== Proof.EdgeSum.lean ====
/-
  The edge stage of the graph convolution, read at an index, over the extended reals.

  The program moves node rows along edges in two steps. The GATHER makes one row per edge: edge `e` receives the node
  row named by the edge's source index, that index read as a signed integer and clamped into the range of node rows.
  The SCATTER-ADD sums edge rows into node rows: node `i` receives, on top of what it held, the sum of the rows of the
  edges whose destination index, read as a signed integer, IS `i`; an edge whose index names no node adds nothing.
  Both are read here column by column: column `q` of the result only involves column `q` of the operand.
  The index arrays stay variables throughout; nothing is computed over the set of edges.
-/
import proofs.«161044_j32607391711820_2_alg».proof.KernelIdeal
import Idealize.ShloMosaic.PureOps.Ideal
import Idealize.ShloMosaic.PureOps.Ideal.Laws
import Idealize.ShloMosaic.Lib.ValueIdx

noncomputable section

namespace Cert.KernelIdeal.EdgeSum

open Idealize.ShloMosaic Idealize.ShloMosaic.ValueIdx

/-! ## Gathering rows: operand `[N, C]`, one start index per edge `[E, 1]`, result `[E, C]` -/

/-- The dimension numbers of a gather of whole rows: the row axis is collapsed and indexed, the column axis is the
    offset axis, the slice is one row. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT EDGE `e`, COLUMN `q`: the operand at the row the edge's start index names (read signed, clamped
    into `[0, N − 1]`), same column. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGather N E C wf) x idx (ix2 e q)
      = x (ix2 ⟨min (idx (ix2 e 0)).toInt.toNat (N - 1), by omega⟩ q) := by
  have h0 : ((rowGather N E C wf).operandIdx (ix2 e q) idx (0 : Fin 2)).val
      = min (idx (ix2 e 0)).toInt.toNat (N - 1) := by
    show (rowGather N E C wf).start (ix2 e q) idx (0 : Fin 2) + (rowGather N E C wf).batchCoord (ix2 e q) (0 : Fin 2)
      + (rowGather N E C wf).offCoord (ix2 e q) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGather N E C wf).startIndexMap from List.mem_singleton.mpr rfl)]
    have hsi : (rowGather N E C wf).siIdx (ix2 e q) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGather N E C wf).operandIdx (ix2 e q) idx (1 : Fin 2)).val = q.val := by
    show (rowGather N E C wf).start (ix2 e q) idx (1 : Fin 2) + (rowGather N E C wf).batchCoord (ix2 e q) (1 : Fin 2)
      + (rowGather N E C wf).offCoord (ix2 e q) (1 : Fin 2) = _
    rw [GatherDims.batchCoord_eq_zero _ _ _ List.not_mem_nil, Nat.add_zero]
    unfold GatherDims.start
    rw [dif_neg (show (1 : Fin 2) ∉ [(0 : Fin 2)] by decide), Nat.zero_add]
    rfl
  unfold Host.gather
  congr 1
  funext a
  refine Fin.ext ?_
  match a with
  | ⟨0, _⟩ => exact h0
  | ⟨1, _⟩ => exact h1

/-! ## Scatter-adding rows: operand `[N, C]`, one index per edge `[E, 1]`, updates `[E, C]` -/

/-- An update lands on operand index `i` exactly when, on every axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg (fun f => (f a).val) hf
      have h2 := h a
      simp only at h1
      omega
    · intro hall
      funext a
      refine Fin.ext ?_
      have h1 := hall a
      show (d.start j idx a + (d.window j a : ℤ)).toNat = (i a).val
      omega
  · rename_i h
    constructor
    · intro hf; cases hf
    · intro hall
      exfalso
      apply h
      intro a
      have h1 := hall a
      have h2 := (i a).isLt
      constructor <;> omega

/-- The dimension numbers of a scatter of whole rows: the column axis is the window axis, the row axis is inserted and
    indexed. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Row
variable {N E C w : Nat} (wf : ScatterDims.WF ⟨2, ![N, C]⟩ ⟨2, ![E, 1]⟩ ⟨2, ![E, C]⟩ [1] [0] [0] 1)
  (idx : IVec ⟨2, ![E, 1]⟩ w)

theorem rowScatter_pos0 (e : Fin E) (q' : Fin C) :
    (rowScatter N E C wf).start (ix2 e q') idx (0 : Fin 2) + ((rowScatter N E C wf).window (ix2 e q') (0 : Fin 2) : ℤ)
      = (idx (ix2 e 0)).toInt := by
  have hw : (rowScatter N E C wf).window (ix2 e q') (0 : Fin 2) = 0 := rfl
  rw [hw]
  unfold ScatterDims.start
  rw [dif_pos (show (0 : Fin 2) ∈ [(0 : Fin 2)] from List.mem_singleton.mpr rfl)]
  have hsi : (rowScatter N E C wf).siIdx (ix2 e q') ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
  simp

theorem rowScatter_pos1 (e : Fin E) (q' : Fin C) :
    (rowScatter N E C wf).start (ix2 e q') idx (1 : Fin 2) + ((rowScatter N E C wf).window (ix2 e q') (1 : Fin 2) : ℤ)
      = (q'.val : ℤ) := by
  have hw : (rowScatter N E C wf).window (ix2 e q') (1 : Fin 2) = q'.val := rfl
  rw [hw]
  unfold ScatterDims.start
  rw [dif_neg (show (1 : Fin 2) ∉ [(0 : Fin 2)] by decide)]
  simp

/-- The update at edge `e`, column `q'` lands on row `i`, column `q` exactly when the columns agree and the edge's
    index, read signed, is `i`. -/
theorem rowScatter_resultIdx?_iff (e : Fin E) (q' q : Fin C) (i : Fin N) :
    (rowScatter N E C wf).resultIdx? (ix2 e q') idx = some (ix2 i q)
      ↔ q' = q ∧ (idx (ix2 e 0)).toInt = (i.val : ℤ) := by
  rw [resultIdx?_eq_some_iff]
  constructor
  · intro h
    have h0 := h (0 : Fin 2)
    have h1 := h (1 : Fin 2)
    rw [rowScatter_pos0] at h0
    rw [rowScatter_pos1] at h1
    exact ⟨Fin.ext (by exact_mod_cast h1), h0⟩
  · rintro ⟨rfl, hi⟩ a
    match a with
    | ⟨0, _⟩ => exact (rowScatter_pos0 wf idx e q').trans hi
    | ⟨1, _⟩ => exact rowScatter_pos1 wf idx e q'

/-- THE ROW SCATTER-ADD READ AT ROW `i`, COLUMN `q`: what was there plus column `q` of the updates of the edges whose
    index is `i`. -/
theorem rowScatter_apply {φ : FTy} (x0 : (⟨2, ![N, C]⟩ : Shape).Idx → EReal) (upd : (⟨2, ![E, C]⟩ : Shape).Idx → EReal)
    (i : Fin N) (q : Fin C) :
    Host.scatterAdd (F := Ideal) (φ := φ) (rowScatter N E C wf) x0 idx upd (ix2 i q)
      = x0 (ix2 i q) + ∑ e ∈ Finset.univ.filter (fun e : Fin E => (idx (ix2 e 0)).toInt = (i.val : ℤ)), upd (ix2 e q) := by
  unfold Host.scatterAdd
  rw [Ideal.hostScatterAdd_def]
  unfold Ideal.hostScatterAdd
  congr 1
  have key : ∀ j : (⟨2, ![E, C]⟩ : Shape).Idx, (rowScatter N E C wf).resultIdx? j idx = some (ix2 i q) →
      ∃ e : Fin E, (idx (ix2 e 0)).toInt = (i.val : ℤ) ∧ j = ix2 e q := by
    intro j hj
    obtain ⟨a, b, rfl⟩ : ∃ (a : Fin E) (b : Fin C), j = ix2 a b := ⟨j 0, j 1, eq_ix2 j⟩
    have h := (rowScatter_resultIdx?_iff wf idx a b q i).1 hj
    exact ⟨a, h.2, by rw [h.1]⟩
  refine Finset.sum_nbij' (fun j => (j 0 : Fin E)) (fun e => ix2 e q) ?_ ?_ ?_ ?_ ?_
  · intro j hj
    obtain ⟨e, he, rfl⟩ := key j (Finset.mem_filter.mp hj).2
    exact Finset.mem_filter.mpr ⟨Finset.mem_univ _, he⟩
  · intro e he
    exact Finset.mem_filter.mpr ⟨Finset.mem_univ _,
      (rowScatter_resultIdx?_iff wf idx e q q i).2 ⟨rfl, (Finset.mem_filter.mp he).2⟩⟩
  · intro j hj
    obtain ⟨e, he, rfl⟩ := key j (Finset.mem_filter.mp hj).2
    rfl
  · intro e _
    rfl
  · intro j hj
    obtain ⟨e, he, rfl⟩ := key j (Finset.mem_filter.mp hj).2
    rfl

end Row

/-! ## Scatter-adding scalars: operand `[N]`, one index per edge `[E, 1]`, updates `[E]` -/

/-- The dimension numbers of a scatter of scalars into a vector: no window axis, the one operand axis inserted and
    indexed. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w)

theorem vecScatter_pos0 (e : Fin E) :
    (vecScatter N E wf).start (ix1 e) idx (0 : Fin 1) + ((vecScatter N E wf).window (ix1 e) (0 : Fin 1) : ℤ)
      = (idx (ix2 e 0)).toInt := by
  have hw : (vecScatter N E wf).window (ix1 e) (0 : Fin 1) = 0 := rfl
  rw [hw]
  unfold ScatterDims.start
  rw [dif_pos (show (0 : Fin 1) ∈ [(0 : Fin 1)] from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
  simp

/-- The update at edge `e` lands on entry `i` exactly when the edge's index, read signed, is `i`. -/
theorem vecScatter_resultIdx?_iff (e : Fin E) (i : Fin N) :
    (vecScatter N E wf).resultIdx? (ix1 e) idx = some (ix1 i) ↔ (idx (ix2 e 0)).toInt = (i.val : ℤ) := by
  rw [resultIdx?_eq_some_iff]
  constructor
  · intro h
    have h0 := h (0 : Fin 1)
    rw [vecScatter_pos0] at h0
    exact h0
  · intro hi a
    match a with
    | ⟨0, _⟩ => exact (vecScatter_pos0 wf idx e).trans hi

/-- THE SCALAR SCATTER-ADD READ AT `i`: what was there plus the updates of the edges whose index is `i`. -/
theorem vecScatter_apply {φ : FTy} (x0 : (⟨1, ![N]⟩ : Shape).Idx → EReal) (upd : (⟨1, ![E]⟩ : Shape).Idx → EReal)
    (i : Fin N) :
    Host.scatterAdd (F := Ideal) (φ := φ) (vecScatter N E wf) x0 idx upd (ix1 i)
      = x0 (ix1 i) + ∑ e ∈ Finset.univ.filter (fun e : Fin E => (idx (ix2 e 0)).toInt = (i.val : ℤ)), upd (ix1 e) := by
  unfold Host.scatterAdd
  rw [Ideal.hostScatterAdd_def]
  unfold Ideal.hostScatterAdd
  congr 1
  have key : ∀ j : (⟨1, ![E]⟩ : Shape).Idx, (vecScatter N E wf).resultIdx? j idx = some (ix1 i) →
      ∃ e : Fin E, (idx (ix2 e 0)).toInt = (i.val : ℤ) ∧ j = ix1 e := by
    intro j hj
    obtain ⟨a, rfl⟩ : ∃ a : Fin E, j = ix1 a := ⟨j 0, eq_ix1 j⟩
    exact ⟨a, (vecScatter_resultIdx?_iff wf idx a i).1 hj, rfl⟩
  refine Finset.sum_nbij' (fun j => (j 0 : Fin E)) (fun e => ix1 e) ?_ ?_ ?_ ?_ ?_
  · intro j hj
    obtain ⟨e, he, rfl⟩ := key j (Finset.mem_filter.mp hj).2
    exact Finset.mem_filter.mpr ⟨Finset.mem_univ _, he⟩
  · intro e he
    exact Finset.mem_filter.mpr ⟨Finset.mem_univ _,
      (vecScatter_resultIdx?_iff wf idx e i).2 (Finset.mem_filter.mp he).2⟩
  · intro j hj
    obtain ⟨e, he, rfl⟩ := key j (Finset.mem_filter.mp hj).2
    rfl
  · intro e _
    rfl
  · intro j hj
    obtain ⟨e, he, rfl⟩ := key j (Finset.mem_filter.mp hj).2
    rfl

end Vec

/-! ## The program's own gathers and scatter-adds: 100000 nodes, 1600000 edges -/

/-- The node row an edge reads: the edge's source index, read signed, clamped into `[0, 100000)`. -/
def srcRow (idx : IVec S1600000x1 32) (e : Fin 1600000) : Fin 100000 :=
  ⟨min (idx (ix2 e 0)).toInt.toNat 99999, by omega⟩

/-- The edges whose destination index IS node `i` (read signed; an index outside `[0, 100000)` is no node's). -/
def inEdges (idx : IVec S1600000x1 32) (i : Fin 100000) : Finset (Fin 1600000) :=
  Finset.univ.filter fun e => (idx (ix2 e 0)).toInt = (i.val : ℤ)

theorem mem_inEdges (idx : IVec S1600000x1 32) (i : Fin 100000) (e : Fin 1600000) :
    e ∈ inEdges idx i ↔ (idx (ix2 e 0)).toInt = (i.val : ℤ) := by
  unfold inEdges
  rw [Finset.mem_filter]
  exact ⟨fun h => h.2, fun h => ⟨Finset.mem_univ _, h⟩⟩

section Program
variable [Facts₀]

/-- The gather of 128-wide rows at edge `e`, column `q`: the source row's column `q`. -/
theorem gather128_apply (x : S100000x128.Idx → EReal) (idx : IVec S1600000x1 32) (e : Fin 1600000) (q : Fin 128) :
    Host.gather gather_S100000x128_S1600000x1_S1600000x128_1_0_n_n_0_1_1128 x idx (ix2 e q)
      = x (ix2 (srcRow idx e) q) :=
  rowGather_apply (by norm_num) Facts₀.gather_S100000x128_S1600000x1_S1600000x128_1_0_n_n_0_1_1128_wf x idx e q

/-- The gather of 64-wide rows at edge `e`, column `q`: the source row's column `q`. -/
theorem gather64_apply (x : S100000x64.Idx → EReal) (idx : IVec S1600000x1 32) (e : Fin 1600000) (q : Fin 64) :
    Host.gather gather_S100000x64_S1600000x1_S1600000x64_1_0_n_n_0_1_164 x idx (ix2 e q)
      = x (ix2 (srcRow idx e) q) :=
  rowGather_apply (by norm_num) Facts₀.gather_S100000x64_S1600000x1_S1600000x64_1_0_n_n_0_1_164_wf x idx e q

/-- The scatter-add of 128-wide rows at node `i`, column `q`: what was there plus column `q` of the incoming edges'
    rows. -/
theorem scatter128_apply (x0 : S100000x128.Idx → EReal) (idx : IVec S1600000x1 32) (upd : S1600000x128.Idx → EReal)
    (i : Fin 100000) (q : Fin 128) :
    Host.scatterAdd (F := Ideal) (φ := .f32) scatter_S100000x128_S1600000x1_S1600000x128_1_0_0_1 x0 idx upd (ix2 i q)
      = x0 (ix2 i q) + ∑ e ∈ inEdges idx i, upd (ix2 e q) :=
  rowScatter_apply Facts₀.scatter_S100000x128_S1600000x1_S1600000x128_1_0_0_1_wf idx x0 upd i q

/-- The scatter-add of 64-wide rows at node `i`, column `q`. -/
theorem scatter64_apply (x0 : S100000x64.Idx → EReal) (idx : IVec S1600000x1 32) (upd : S1600000x64.Idx → EReal)
    (i : Fin 100000) (q : Fin 64) :
    Host.scatterAdd (F := Ideal) (φ := .f32) scatter_S100000x64_S1600000x1_S1600000x64_1_0_0_1 x0 idx upd (ix2 i q)
      = x0 (ix2 i q) + ∑ e ∈ inEdges idx i, upd (ix2 e q) :=
  rowScatter_apply Facts₀.scatter_S100000x64_S1600000x1_S1600000x64_1_0_0_1_wf idx x0 upd i q

/-- The scatter-add of one scalar per edge at node `i`: what was there plus the incoming edges' scalars (with every
    update `1`, the number of incoming edges). -/
theorem scatter1_apply (x0 : S100000.Idx → EReal) (idx : IVec S1600000x1 32) (upd : S1600000.Idx → EReal)
    (i : Fin 100000) :
    Host.scatterAdd (F := Ideal) (φ := .f32) scatter_S100000_S1600000x1_S1600000_n_0_0_1 x0 idx upd (ix1 i)
      = x0 (ix1 i) + ∑ e ∈ inEdges idx i, upd (ix1 e) :=
  vecScatter_apply Facts₀.scatter_S100000_S1600000x1_S1600000_n_0_0_1_wf idx x0 upd i

end Program

end Cert.KernelIdeal.EdgeSum
-- ==== Proof.Finite.lean ====
/-
  The host's aggregations along the edges read at an index, and the real-number facts about them.

  Between the dense stages the host sums node rows along the edges: row `r` of the aggregate is the sum, over the edges whose
  destination index is `r`, of the row the edge's source index names (read signed, clamped into the node range). The sums
  start from the zero array, which drops out. The degree factors are inverse square roots of positive edge counts, or
  zero: real numbers either way. A sum of real numbers over edges is real, so aggregation keeps every entry real.
-/
import proofs.«161044_j32607391711820_2_alg».proof.Proof.EdgeSum
import proofs.«161044_j32607391711820_2_alg».proof.Proof.LibRealSums
import proofs.«161044_j32607391711820_2_alg».proof.Proof.KHost
import proofs.«161044_j32607391711820_2_alg».proof.Defs
import Idealize.ShloMosaic.Lib.IdealHost
import Idealize.ShloMosaic.Lib.ReduceAll

noncomputable section

namespace Cert.KernelIdeal.Finite

open Idealize.ShloMosaic Idealize.ShloMosaic.ValueIdx
open Cert.KernelIdeal Cert.KernelIdeal.EdgeSum Cert.KernelIdeal.HostValue

/-! ## The aggregations read at an index -/

/-- Row `r`, column `q` of the 128-wide aggregate: the sum over the edges ending at `r` of column `q` of the rows they
    start from. -/
theorem aggregate128_apply (h : S100000x128.Idx → EReal) (x7 x8 : S1600000.Idx → BitVec 32) (r : Fin 100000)
    (q : Fin 128) :
    aggregate128 (F := Ideal) h x7 x8 (ix2 r q)
      = ∑ e ∈ inEdges (Cert.ReferenceIdeal.Read.val_main_v52 (F := Ideal) x8) r,
          h (ix2 (srcRow (Cert.ReferenceIdeal.Read.val_main_v49 (F := Ideal) x7) e) q) := by
  unfold aggregate128
  refine (rowScatter_apply (N := 100000) (E := 1600000) (C := 128) _ _ _ _ r q).trans ?_
  rw [Cert.ReferenceIdeal.Read.val_main_v51_apply, Cert.ReferenceIdeal.Read.val_main_cst_13_apply]
  show Ideal.ofBits .f32 0x00000000#32 + _ = _
  rw [Ideal.ofBits_zero_f32, zero_add]
  refine Finset.sum_congr rfl fun e _ => ?_
  exact rowGather_apply (by norm_num) _ h _ e q

/-- Row `r`, column `q` of the 64-wide aggregate. -/
theorem aggregate64_apply (h : S100000x64.Idx → EReal) (x7 x8 : S1600000.Idx → BitVec 32) (r : Fin 100000)
    (q : Fin 64) :
    aggregate64 (F := Ideal) h x7 x8 (ix2 r q)
      = ∑ e ∈ inEdges (Cert.ReferenceIdeal.Read.val_main_v52 (F := Ideal) x8) r,
          h (ix2 (srcRow (Cert.ReferenceIdeal.Read.val_main_v49 (F := Ideal) x7) e) q) := by
  unfold aggregate64
  refine (rowScatter_apply (N := 100000) (E := 1600000) (C := 64) _ _ _ _ r q).trans ?_
  rw [broadcastInDim_apply _ Gen.bcast_S_S100000x64 (constant (F := Ideal) S_ .f32 0x00000000#32) (ix2 r q)
    (fun a => a.elim0) (fun a => a.elim0)]
  show Ideal.ofBits .f32 0x00000000#32 + _ = _
  rw [Ideal.ofBits_zero_f32, zero_add]
  refine Finset.sum_congr rfl fun e _ => ?_
  exact rowGather_apply (by norm_num) _ h _ e q

/-! ## The degree factors are real numbers -/

/-- The inverse square root of a positive real number is a real number. -/
theorem isReal_rsqrt {x : EReal} (hx : IsReal x) (hpos : 0 < x) : IsReal (Ideal.rsqrt x) := by
  obtain ⟨m, rfl⟩ := hx
  have hm : 0 < m := by exact_mod_cast hpos
  rw [Ideal.rsqrt_coe, if_neg (not_lt.mpr hm.le), if_neg hm.ne']
  exact ⟨_, rfl⟩

/-- A degree factor: the inverse square root of the degree raised to at least one where the mask bit is set, zero
    elsewhere. It is real as soon as the degree is. -/
theorem isReal_factor (c : BitVec 1) {deg one zero : EReal} (hdeg : IsReal deg) (h1 : one = 1) (h0 : zero = 0) :
    IsReal (Scalar.select c (Ideal.rsqrt (max deg one)) zero) := by
  subst h1 h0
  by_cases hc : c = 1#1
  · rw [hc, select_one]
    exact isReal_rsqrt (hdeg.max isReal_one) (lt_of_lt_of_le zero_lt_one (le_max_right _ _))
  · rw [eq_zero_of_ne_one hc, select_zero]
    exact isReal_zero

section Ref
open Cert.ReferenceIdeal.Read

/-- The out-degree of node `r`, a count of edges, is a real number. -/
theorem outDegree_real (x : S1600000.Idx → BitVec 32) (r : Fin 100000) :
    IsReal (val_main_v3 (F := Ideal) x (ix1 r)) := by
  have e : val_main_v3 (F := Ideal) x (ix1 r)
      = val_main_v1 (F := Ideal) (ix1 r) + ∑ e ∈ inEdges (val_main_v2 (F := Ideal) x) r, val_main_v0 (F := Ideal) (ix1 e) :=
    vecScatter_apply (N := 100000) (E := 1600000) _ _ _ _ r
  rw [e]
  refine IsReal.add ?_ (IsReal.sum _ _ fun e _ => ?_)
  · rw [val_main_v1_apply, val_main_cst_0_apply, Ideal.ofBits_def, Ideal.ofBits_zero_f32]
    exact isReal_zero
  · rw [val_main_v0_apply, val_main_cst_apply, Ideal.ofBits_def, Ideal.ofBits_one_f32]
    exact isReal_one

/-- The in-degree of node `r` is a real number. -/
theorem inDegree_real (x : S1600000.Idx → BitVec 32) (r : Fin 100000) :
    IsReal (val_main_v13 (F := Ideal) x (ix1 r)) := by
  have e : val_main_v13 (F := Ideal) x (ix1 r)
      = val_main_v11 (F := Ideal) (ix1 r) + ∑ e ∈ inEdges (val_main_v12 (F := Ideal) x) r, val_main_v10 (F := Ideal) (ix1 e) :=
    vecScatter_apply (N := 100000) (E := 1600000) _ _ _ _ r
  rw [e]
  refine IsReal.add ?_ (IsReal.sum _ _ fun e _ => ?_)
  · rw [val_main_v11_apply, val_main_cst_5_apply, Ideal.ofBits_def, Ideal.ofBits_zero_f32]
    exact isReal_zero
  · rw [val_main_v10_apply, val_main_cst_4_apply, Ideal.ofBits_def, Ideal.ofBits_one_f32]
    exact isReal_one

/-- The out-degree factor of every node is a real number. -/
theorem outFactor_real (x : S1600000.Idx → BitVec 32) (r : Fin 100000) :
    IsReal (val_main_v9 (F := Ideal) x (ix1 r)) := by
  have hdeg := outDegree_real x r
  have h1 : val_main_v6 (F := Ideal) (ix1 r) = 1 := by
    rw [val_main_v6_apply, val_main_cst_2_apply, Ideal.ofBits_def, Ideal.ofBits_one_f32]
  have h0 : val_main_call0_v1 (F := Ideal) (ix1 r) = 0 := by
    rw [val_main_call0_v1_apply, val_main_call0_v0_apply, val_main_cst_3_apply, Ideal.ofBits_def, Ideal.ofBits_zero_f32]
  rw [val_main_v9_apply]
  rw [val_main_v8_apply]
  rw [val_main_v7_apply]
  rw [h1, h0]
  generalize val_main_v3 (F := Ideal) x (ix1 r) = deg at hdeg ⊢
  generalize val_main_v5 (F := Ideal) x (ix1 r) = c
  rw [Ideal.hostUnary_rsqrt_def, Ideal.maximumf_def]
  exact isReal_factor c hdeg rfl rfl

/-- The in-degree factor of every node is a real number. -/
theorem inFactor_real (x : S1600000.Idx → BitVec 32) (r : Fin 100000) :
    IsReal (val_main_v19 (F := Ideal) x (ix1 r)) := by
  have hdeg := inDegree_real x r
  have h1 : val_main_v16 (F := Ideal) (ix1 r) = 1 := by
    rw [val_main_v16_apply, val_main_cst_7_apply, Ideal.ofBits_def, Ideal.ofBits_one_f32]
  have h0 : val_main_call1_v1 (F := Ideal) (ix1 r) = 0 := by
    rw [val_main_call1_v1_apply, val_main_call1_v0_apply, val_main_cst_8_apply, Ideal.ofBits_def, Ideal.ofBits_zero_f32]
  rw [val_main_v19_apply]
  rw [val_main_v18_apply]
  rw [val_main_v17_apply]
  rw [h1, h0]
  generalize val_main_v13 (F := Ideal) x (ix1 r) = deg at hdeg ⊢
  generalize val_main_v15 (F := Ideal) x (ix1 r) = c
  rw [Ideal.hostUnary_rsqrt_def, Ideal.maximumf_def]
  exact isReal_factor c hdeg rfl rfl

end Ref

/-! ## Aggregation keeps every entry real -/

theorem aggregate128_real (h : S100000x128.Idx → EReal) (x7 x8 : S1600000.Idx → BitVec 32)
    (hh : ∀ i, IsReal (h i)) : ∀ i, IsReal (aggregate128 (F := Ideal) h x7 x8 i) := by
  intro i
  obtain ⟨r, q, rfl⟩ : ∃ (r : Fin 100000) (q : Fin 128), i = ix2 r q := ⟨i 0, i 1, eq_ix2 i⟩
  rw [aggregate128_apply]
  exact IsReal.sum _ _ fun e _ => hh _

theorem aggregate64_real (h : S100000x64.Idx → EReal) (x7 x8 : S1600000.Idx → BitVec 32)
    (hh : ∀ i, IsReal (h i)) : ∀ i, IsReal (aggregate64 (F := Ideal) h x7 x8 i) := by
  intro i
  obtain ⟨r, q, rfl⟩ : ∃ (r : Fin 100000) (q : Fin 64), i = ix2 r q := ⟨i 0, i 1, eq_ix2 i⟩
  rw [aggregate64_apply]
  exact IsReal.sum _ _ fun e _ => hh _

end Cert.KernelIdeal.Finite
-- ==== Proof.RealChain.lean ====
/-
  Every array the layers pass along is an array of real numbers when the arguments are: the degree factors always are (a
  degree is a finite count, and the inverse square root of a number at least one is a real), an aggregation is a finite
  sum, and a dense stage a finite combination of sums, products and maxima.
-/
import proofs.«161044_j32607391711820_2_alg».proof.Proof.RefLayers
import proofs.«161044_j32607391711820_2_alg».proof.Proof.LayerReal
import proofs.«161044_j32607391711820_2_alg».proof.Proof.Finite

set_option maxRecDepth 16384

noncomputable section

namespace Cert.ReferenceIdeal.Layers

open Cert.ReferenceIdeal Cert.ReferenceIdeal.Read Cert.GraphSpec
open Idealize.ShloMosaic Idealize.ShloMosaic.ValueIdx
open Cert.KernelIdeal.EdgeSum Cert.KernelIdeal.Finite Cert.KernelIdeal.HostValue

theorem degPair_real {INF OUTF : S100000.Idx → EReal} (hI : ∀ i, IsReal (INF i)) (hO : ∀ i, IsReal (OUTF i)) (i : Cert.KernelIdeal.S100000x2.Idx) :
    IsReal (degPair (F := Ideal) INF OUTF i) := by
  obtain ⟨r, j, rfl⟩ : ∃ (r : Fin 100000) (j : Fin 2), i = ix2 r j := ⟨i 0, i 1, eq_ix2 i⟩
  match j with
  | ⟨0, _⟩ =>
    show IsReal (degPair (F := Ideal) INF OUTF (ix2 r (0 : Fin 2)))
    rw [degPair_in]; exact hI _
  | ⟨1, _⟩ =>
    show IsReal (degPair (F := Ideal) INF OUTF (ix2 r (1 : Fin 2)))
    rw [degPair_out]; exact hO _

theorem biasRow128_real {b : S128.Idx → EReal} (hb : ∀ i, IsReal (b i)) (i : Cert.KernelIdeal.S1x128.Idx) :
    IsReal (biasRow128 (F := Ideal) b i) := by
  obtain ⟨u, q, rfl⟩ : ∃ (u : Fin 1) (q : Fin 128), i = ix2 u q := ⟨i 0, i 1, eq_ix2 i⟩
  obtain rfl : u = 0 := Subsingleton.elim _ _
  rw [biasRow128_apply]; exact hb _

theorem inFactor_real' (x8 : S1600000.Idx → BitVec 32) (i : S100000.Idx) : IsReal (val_main_v19 (F := Ideal) x8 i) := by
  obtain ⟨r, rfl⟩ : ∃ r : Fin 100000, i = ix1 r := ⟨i 0, eq_ix1 i⟩
  exact inFactor_real x8 r

theorem outFactor_real' (x7 : S1600000.Idx → BitVec 32) (i : S100000.Idx) : IsReal (val_main_v9 (F := Ideal) x7 i) := by
  obtain ⟨r, rfl⟩ : ∃ r : Fin 100000, i = ix1 r := ⟨i 0, eq_ix1 i⟩
  exact outFactor_real x7 r

variable (x0 : S100000x128.Idx → EReal) (x1 : S128x128.Idx → EReal) (x2 : S128.Idx → EReal) (x3 : S128x128.Idx → EReal)
  (x4 : S128.Idx → EReal) (x7 x8 : S1600000.Idx → BitVec 32)

/-- The input features scaled by the out-degree factor. -/
theorem scaledInput_real (h0 : ∀ i, IsReal (x0 i)) (i : S100000x128.Idx) : IsReal (val_main_v22 (F := Ideal) x0 x7 i) := by
  obtain ⟨r, q, rfl⟩ : ∃ (r : Fin 100000) (q : Fin 128), i = ix2 r q := ⟨i 0, i 1, eq_ix2 i⟩
  have e : idx_main_v20 (idx_main_v21 (ix2 r q)) = ix1 r := funext fun a => Fin.ext (by match a with | ⟨0, _⟩ => rfl)
  rw [val_main_v22_apply, val_main_v21_apply, val_main_v20_apply, e, Ideal.mulf_def]
  exact (h0 _).mul (outFactor_real x7 r)

/-- The first layer's output (already scaled for the second aggregation). -/
theorem hidden1_real (h0 : ∀ i, IsReal (x0 i)) (h1 : ∀ i, IsReal (x1 i)) (h2 : ∀ i, IsReal (x2 i)) (i : S100000x128.Idx) :
    IsReal (val_main_v43 (F := Ideal) x0 x1 x2 x7 x8 i) := by
  rw [layer1_eq]
  refine layer1_real (fun j => ?_) (degPair_real (inFactor_real' x8) (outFactor_real' x7)) h1 (biasRow128_real h2) i
  rw [agg_first]
  exact aggregate128_real _ x7 x8 (scaledInput_real x0 x7 h0) j

/-- The second layer's output. -/
theorem hidden2_real (h0 : ∀ i, IsReal (x0 i)) (h1 : ∀ i, IsReal (x1 i)) (h2 : ∀ i, IsReal (x2 i)) (h3 : ∀ i, IsReal (x3 i))
    (h4 : ∀ i, IsReal (x4 i)) (i : S100000x128.Idx) : IsReal (val_main_v61 (F := Ideal) x0 x1 x2 x3 x4 x7 x8 i) := by
  rw [layer2_eq]
  refine layer2_real (fun j => ?_) (degPair_real (inFactor_real' x8) (outFactor_real' x7)) h3 (biasRow128_real h4) i
  rw [agg_second]
  exact aggregate128_real _ x7 x8 (hidden1_real x0 x1 x2 x7 x8 h0 h1 h2) j

end Cert.ReferenceIdeal.Layers

end
-- ==== Proof.FinalLaw.lean ====
/-
  Layer 3: the matrix product passes through the aggregation.  The kernel multiplies the rows by the weights first,
  scales by the out-degree factor, aggregates the 64-wide rows along the edges and scales by the in-degree factor; the
  reference scales by the out-degree factor, aggregates the 128-wide rows, scales by the in-degree factor and multiplies
  by the weights last.  Entry (r, q) of either is a double sum over the edges ending at r and the 128 columns, of
  h[src e, k] · o[src e] · ι[r] · W[k, q]; the two orders of summation agree because every factor is a real number
  (on the extended reals the distributive law would fail at infinities of opposite signs).
-/
import proofs.«161044_j32607391711820_2_alg».proof.Proof.HostReads
import proofs.«161044_j32607391711820_2_alg».proof.Proof.Finite
import proofs.«161044_j32607391711820_2_alg».proof.Proof.LibRealSums

set_option maxRecDepth 16384

noncomputable section

namespace Cert.ReferenceIdeal.Layers

open Cert.ReferenceIdeal Cert.ReferenceIdeal.Read Cert.GraphSpec
open Idealize.ShloMosaic Idealize.ShloMosaic.ValueIdx
open Cert.KernelIdeal.EdgeSum Cert.KernelIdeal.Finite Cert.KernelIdeal.HostValue

/-- The law, over arbitrary arrays of real numbers. -/
theorem layer3_law (H : S100000x128.Idx → EReal) (INF OUTF : S100000.Idx → EReal) (x5 : S128x64.Idx → EReal) (x6 : S64.Idx → EReal)
    (x7 x8 : S1600000.Idx → BitVec 32)
    (hH : ∀ i, IsReal (H i)) (hI : ∀ i, IsReal (INF i)) (hO : ∀ i, IsReal (OUTF i)) (h5 : ∀ i, IsReal (x5 i)) (r : Fin 100000) (q : Fin 64) :
    layer3post (aggregate64 (F := Ideal) (layer3pre H (degPair (F := Ideal) INF OUTF) x5) x7 x8) (degPair (F := Ideal) INF OUTF)
        (biasRow64 (F := Ideal) x6) (ix2 r q)
      = (∑ k : Fin 128, (aggregate128 (F := Ideal) (fun j => H j * OUTF (ix1 (j 0))) x7 x8 (ix2 r k) * INF (ix1 r)) * x5 (ix2 k q))
          + x6 (ix1 q) := by
  show aggregate64 (F := Ideal) (layer3pre H (degPair (F := Ideal) INF OUTF) x5) x7 x8 (ix2 r q)
      * degPair (F := Ideal) INF OUTF (ix2 r (0 : Fin 2)) + biasRow64 (F := Ideal) x6 (ix2 (0 : Fin 1) q) = _
  rw [aggregate64_apply, degPair_in, biasRow64_apply]
  simp only [aggregate128_apply]
  have hpre : ∀ s : Fin 100000, layer3pre H (degPair (F := Ideal) INF OUTF) x5 (ix2 s q)
      = (∑ k : Fin 128, H (ix2 s k) * x5 (ix2 k q)) * OUTF (ix1 s) := fun s => by
    show (∑ k : Fin 128, H (ix2 s k) * x5 (ix2 k q)) * degPair (F := Ideal) INF OUTF (ix2 s (1 : Fin 2)) = _
    rw [degPair_out]
  simp only [hpre]
  generalize inEdges (val_main_v52 (F := Ideal) x8) r = P
  generalize srcRow (val_main_v49 (F := Ideal) x7) = S
  congr 1
  exact sum_edges_matmul P (fun e k => H (ix2 (S e) k)) (fun e => OUTF (ix1 (S e))) (fun k => x5 (ix2 k q)) (INF (ix1 r))
    (fun e k => hH _) (fun e => hO _) (fun k => h5 _) (hI _)

variable (x0 : S100000x128.Idx → EReal) (x1 : S128x128.Idx → EReal) (x2 : S128.Idx → EReal) (x3 : S128x128.Idx → EReal)
  (x4 : S128.Idx → EReal) (x5 : S128x64.Idx → EReal) (x6 : S64.Idx → EReal) (x7 x8 : S1600000.Idx → BitVec 32)

/-- The reference's third layer read at an index. -/
theorem out_apply (r : Fin 100000) (q : Fin 64) :
    val_main_v81 (F := Ideal) x0 x1 x2 x3 x4 x5 x6 x7 x8 (ix2 r q)
      = (∑ k : Fin 128, (val_main_v74 (F := Ideal) x0 x1 x2 x3 x4 x7 x8 (ix2 r k) * val_main_v19 (F := Ideal) x8 (ix1 r)) * x5 (ix2 k q))
          + x6 (ix1 q) := by
  have e2 : idx_main_v79 (idx_main_v80 (ix2 r q)) = ix1 q := funext fun a => Fin.ext (by match a with | ⟨0, _⟩ => rfl)
  have e3 : ∀ k : Fin 128, lidx_main_v78 (ix2 r q) k = ix2 r k := fun k => funext fun a => Fin.ext (by match a with | ⟨0, _⟩ => rfl | ⟨1, _⟩ => rfl)
  have e4 : ∀ k : Fin 128, ridx_main_v78 (ix2 r q) k = ix2 k q := fun k => funext fun a => Fin.ext (by match a with | ⟨0, _⟩ => rfl | ⟨1, _⟩ => rfl)
  have e5 : ∀ k : Fin 128, idx_main_v75 (idx_main_v76 (ix2 r k)) = ix1 r := fun k => funext fun a => Fin.ext (by match a with | ⟨0, _⟩ => rfl)
  have hsum : (∑ k : Fin 128, val_main_v77 (F := Ideal) x0 x1 x2 x3 x4 x7 x8 (lidx_main_v78 (ix2 r q) k) * x5 (ridx_main_v78 (ix2 r q) k))
      = ∑ k : Fin 128, (val_main_v74 (F := Ideal) x0 x1 x2 x3 x4 x7 x8 (ix2 r k) * val_main_v19 (F := Ideal) x8 (ix1 r)) * x5 (ix2 k q) :=
    Finset.sum_congr rfl fun k _ => by
      rw [e3 k, e4 k, val_main_v77_apply, val_main_v76_apply, val_main_v75_apply, e5 k, Ideal.mulf_def]
  rw [val_main_v81_apply, val_main_v80_apply, val_main_v79_apply, val_main_v78_apply, hsum, e2, Ideal.addf_def]

/-- The array the reference's third aggregation is applied to: the second layer's output scaled by the out-degree factor. -/
theorem scaled_eq : val_main_v64 (F := Ideal) x0 x1 x2 x3 x4 x7 x8
    = fun j => val_main_v61 (F := Ideal) x0 x1 x2 x3 x4 x7 x8 j * val_main_v9 (F := Ideal) x7 (ix1 (j 0)) := by
  funext j
  obtain ⟨s, k, rfl⟩ : ∃ (s : Fin 100000) (k : Fin 128), j = ix2 s k := ⟨j 0, j 1, eq_ix2 j⟩
  have e1 : idx_main_v62 (idx_main_v63 (ix2 s k)) = ix1 s := funext fun a => Fin.ext (by match a with | ⟨0, _⟩ => rfl)
  rw [val_main_v64_apply, val_main_v63_apply, val_main_v62_apply, e1]
  generalize val_main_v61 (F := Ideal) x0 x1 x2 x3 x4 x7 x8 = H
  generalize val_main_v9 (F := Ideal) x7 = OUTF
  rfl

/-- The reference's result is the kernel's last two dense stages around the 64-wide aggregation, applied to the reference's
    second-layer output. -/
theorem layer3_eq (hH : ∀ i, IsReal (val_main_v61 (F := Ideal) x0 x1 x2 x3 x4 x7 x8 i)) (h5 : ∀ i, IsReal (x5 i)) :
    val_main_v81 (F := Ideal) x0 x1 x2 x3 x4 x5 x6 x7 x8
      = layer3post (aggregate64 (F := Ideal) (layer3pre (val_main_v61 (F := Ideal) x0 x1 x2 x3 x4 x7 x8)
            (degPair (F := Ideal) (val_main_v19 (F := Ideal) x8) (val_main_v9 (F := Ideal) x7)) x5) x7 x8)
          (degPair (F := Ideal) (val_main_v19 (F := Ideal) x8) (val_main_v9 (F := Ideal) x7)) (biasRow64 (F := Ideal) x6) := by
  have hI : ∀ i, IsReal (val_main_v19 (F := Ideal) x8 i) := fun i => by
    obtain ⟨r, rfl⟩ : ∃ r : Fin 100000, i = ix1 r := ⟨i 0, eq_ix1 i⟩
    exact inFactor_real x8 r
  have hO : ∀ i, IsReal (val_main_v9 (F := Ideal) x7 i) := fun i => by
    obtain ⟨r, rfl⟩ : ∃ r : Fin 100000, i = ix1 r := ⟨i 0, eq_ix1 i⟩
    exact outFactor_real x7 r
  funext i
  obtain ⟨r, q, rfl⟩ : ∃ (r : Fin 100000) (q : Fin 64), i = ix2 r q := ⟨i 0, i 1, eq_ix2 i⟩
  rw [out_apply, agg_third, scaled_eq]
  exact (layer3_law _ _ _ x5 x6 x7 x8 hH hI hO h5 r q).symm

end Cert.ReferenceIdeal.Layers

end
-- ==== Proof.Bridge.lean ====
/-
  The two results are one array.  The kernel program's result is its last two dense stages around the 64-wide aggregation,
  applied to its second layer's output; its first two layers are the reference's (the same dense stages of the same
  aggregated arrays, the scaling by the out-degree factor done at the end of one layer instead of the start of the next), and
  the third layers agree by the law that passes the matrix product through the aggregation, which holds because every array
  involved is an array of real numbers when the arguments are.
-/
import proofs.«161044_j32607391711820_2_alg».proof.Proof.KChain
import proofs.«161044_j32607391711820_2_alg».proof.Proof.RealChain
import proofs.«161044_j32607391711820_2_alg».proof.Proof.FinalLaw

set_option maxRecDepth 16384

noncomputable section

namespace Cert.Proof.Bridge

open Idealize.ShloMosaic Idealize.ShloMosaic.TcCoe Idealize.SL.Sem
open Cert.KernelIdeal.EdgeSum Cert.ReferenceIdeal.Layers

theorem result_is_reference (m : (ℓ : Loc Cert.KernelIdeal.nD Cert.KernelIdeal.τ Cert.KernelIdeal.sig) → Buf (Elt Ideal) ℓ)
    (c : Dev Cert.KernelIdeal.nD)
    (h0 : ∀ i, IsReal ((m ((c : Thread Cert.KernelIdeal.nD Cert.KernelIdeal.τ).loc Cert.KernelIdeal.main_arg0)) i)) (h1 : ∀ i, IsReal ((m ((c : Thread Cert.KernelIdeal.nD Cert.KernelIdeal.τ).loc Cert.KernelIdeal.main_arg1)) i)) (h2 : ∀ i, IsReal ((m ((c : Thread Cert.KernelIdeal.nD Cert.KernelIdeal.τ).loc Cert.KernelIdeal.main_arg2)) i))
    (h3 : ∀ i, IsReal ((m ((c : Thread Cert.KernelIdeal.nD Cert.KernelIdeal.τ).loc Cert.KernelIdeal.main_arg3)) i)) (h4 : ∀ i, IsReal ((m ((c : Thread Cert.KernelIdeal.nD Cert.KernelIdeal.τ).loc Cert.KernelIdeal.main_arg4)) i)) (h5 : ∀ i, IsReal ((m ((c : Thread Cert.KernelIdeal.nD Cert.KernelIdeal.τ).loc Cert.KernelIdeal.main_arg5)) i)) :
    Cert.KernelIdeal.HostValue.resultTerm m c
      = Cert.ReferenceIdeal.Read.val_main_v81 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  unfold Cert.KernelIdeal.HostValue.resultTerm
  rw [← layer1_eq, ← agg_second, ← layer2_eq]
  exact (layer3_eq _ _ _ _ _ _ _ _ _ (hidden2_real _ _ _ _ _ _ _ h0 h1 h2 h3 h4) h5).symm

end Cert.Proof.Bridge

end
-- ==== Proof.FiniteArgs.lean ====
/-
  Under the launch precondition every entry of the seven floating-point argument arrays is a real number.

  The precondition is one conjunction of seven tests, one per array: "the absolute value of every entry is below plus
  infinity". A conjunction of one-bit words that is 1 has every conjunct 1; a test over a whole array that is 1 holds at
  every entry; and an extended real whose absolute value is below plus infinity is neither infinity.
-/
import proofs.«161044_j32607391711820_2_alg».proof.Proof.LibRealSums
import proofs.«161044_j32607391711820_2_alg».proof.Defs
import Idealize.ShloMosaic.Lib.IdealHost
import Idealize.ShloMosaic.Lib.ReduceAll
import Idealize.ShloMosaic.Lib.ValueIdx
import Idealize.ShloMosaic.Lib.Pipeline.Value

noncomputable section

namespace Cert.KernelIdeal.Finite

open Idealize.ShloMosaic Idealize.ShloMosaic.ValueIdx
open Cert.KernelIdeal Cert.KernelIdeal.EdgeSum

/-! ## The precondition makes every float argument real -/

instance : Subsingleton Cert.Pre_finite_inputs.S_.Idx := ⟨fun _ _ => funext fun d => d.elim0⟩

/-- The word `0x7F800000` is plus infinity. -/
theorem ofBits_inf_f32 : Ideal.ofBits .f32 0x7F800000#32 = ⊤ := by simp [Ideal.ofBits, Ideal.ieee]

/-- One test "every entry has absolute value below plus infinity" that came out true makes every entry real. -/
theorem all_finite_real {s : Shape} {axes : List (Fin s.rank)} (x : s.Idx → EReal)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf (F := Ideal) .olt (Host.absf x)
          (broadcastInDim s ![] bc (constant (F := Ideal) Cert.Pre_finite_inputs.S_ .f32 0x7F800000#32)))
        (constantI Cert.Pre_finite_inputs.S_ 1 1#1) hr hu ix0 = 1#1) (i : s.Idx) : IsReal (x i) := by
  have h := Host.reduce_andi_all _ _ hr hu ix0 e i
  rw [cmpf_apply, broadcastInDim_apply _ bc _ i (fun a => a.elim0) (fun a => a.elim0)] at h
  change Ideal.cmp .olt (max (x i) (-(x i))) (Ideal.ofBits .f32 0x7F800000#32) = 1#1 at h
  rw [ofBits_inf_f32] at h
  have hb : ∀ b : Bool, BitVec.ofBool b = 1#1 → b = true := by decide
  exact isReal_of_abs_lt_top (of_decide_eq_true (hb _ h))

section Args
open Idealize.SL.Sem

/-- A conjunction of one-bit words that is 1 has both sides 1. -/
theorem andi_one {s : Shape} (a b : IVec s 1) (j : s.Idx) (h : andi a b j = 1#1) : a j = 1#1 ∧ b j = 1#1 :=
  IntOp.andi_eq_one.1 h

/-- Under the precondition every entry of the seven float arguments is a real number. -/
theorem args_real [Cert.Pre_finite_inputs.Facts] (m : (ℓ : Loc nD τ sig) → Buf (Elt Ideal) ℓ)
    (h : Cert.Pre_KernelIdeal m) (c : Dev nD) :
    (∀ i, IsReal (m ((c.tc : Thread nD τ).loc main_arg0) i)) ∧
    (∀ i, IsReal (m ((c.tc : Thread nD τ).loc main_arg1) i)) ∧
    (∀ i, IsReal (m ((c.tc : Thread nD τ).loc main_arg2) i)) ∧
    (∀ i, IsReal (m ((c.tc : Thread nD τ).loc main_arg3) i)) ∧
    (∀ i, IsReal (m ((c.tc : Thread nD τ).loc main_arg4) i)) ∧
    (∀ i, IsReal (m ((c.tc : Thread nD τ).loc main_arg5) i)) ∧
    (∀ i, IsReal (m ((c.tc : Thread nD τ).loc main_arg6) i)) := by
  have h0 := congrFun (h c) ix0
  dsimp only [Cert.Pre_finite_inputs.fn, Cert.Pre_finite_inputs.fn_part1] at h0
  obtain ⟨h0, e6⟩ := andi_one _ _ _ h0
  obtain ⟨h0, e5⟩ := andi_one _ _ _ h0
  obtain ⟨h0, e4⟩ := andi_one _ _ _ h0
  obtain ⟨h0, e3⟩ := andi_one _ _ _ h0
  obtain ⟨h0, e2⟩ := andi_one _ _ _ h0
  obtain ⟨e0, e1⟩ := andi_one _ _ _ h0
  exact ⟨all_finite_real _ _ _ _ e0, all_finite_real _ _ _ _ e1, all_finite_real _ _ _ _ e2,
    all_finite_real _ _ _ _ e3, all_finite_real _ _ _ _ e4, all_finite_real _ _ _ _ e5, all_finite_real _ _ _ _ e6⟩

end Args

end Cert.KernelIdeal.Finite
-- ==== Proof.lean ====
/-
  A three-layer graph convolution on 100000 nodes and 1600000 edges: the Pallas program against its jnp reference, equal as
  arrays of extended reals whenever the float arguments are finite.

  Both programs compute the two degree factors of every node and aggregate node rows along the edges on the host, with the
  same operations.  The Pallas program runs the dense part of each layer in a pipelined region over blocks of 5000 rows
  (layer 3 in two regions, the matrix product moved before the aggregation so that the aggregated rows are 64 wide); each
  region's output array is one function of its operand arrays, index by index (Region0 … Region3), and the host stretches
  between the regions are read off the segment boundaries (KRun, KEntry0, KHost, KChain).  The reference's run is its
  operations' composed term.  Layers 1 and 2 are the same function on both sides; layer 3 needs the distributive law,
  which holds because every array involved holds real numbers (RealChain, FinalLaw, Bridge).
-/
import proofs.«161044_j32607391711820_2_alg».proof.Defs
import proofs.«161044_j32607391711820_2_alg».proof.Proof.Gen.Kernel
import proofs.«161044_j32607391711820_2_alg».proof.Proof.Gen.Kernel.Skeleton
import proofs.«161044_j32607391711820_2_alg».proof.Proof.Gen.Kernel.Launch
import proofs.«161044_j32607391711820_2_alg».proof.Proof.Gen.Kernel.Points
import proofs.«161044_j32607391711820_2_alg».proof.Proof.Gen.Kernel.Frame
import proofs.«161044_j32607391711820_2_alg».proof.Proof.Gen.KernelIdeal
import proofs.«161044_j32607391711820_2_alg».proof.Proof.Gen.KernelIdeal.Skeleton
import proofs.«161044_j32607391711820_2_alg».proof.Proof.Gen.KernelIdeal.Launch
import proofs.«161044_j32607391711820_2_alg».proof.Proof.Gen.KernelIdeal.Points
import proofs.«161044_j32607391711820_2_alg».proof.Proof.Gen.KernelIdeal.Frame
import proofs.«161044_j32607391711820_2_alg».proof.Proof.Gen.ReferenceIdeal
import proofs.«161044_j32607391711820_2_alg».proof.Proof.Gen.Pre_finite_inputs
import proofs.«161044_j32607391711820_2_alg».proof.Proof.KRun
import proofs.«161044_j32607391711820_2_alg».proof.Proof.Region0
import proofs.«161044_j32607391711820_2_alg».proof.Proof.Region1
import proofs.«161044_j32607391711820_2_alg».proof.Proof.Region2
import proofs.«161044_j32607391711820_2_alg».proof.Proof.Region3
import proofs.«161044_j32607391711820_2_alg».proof.Proof.Bridge
import proofs.«161044_j32607391711820_2_alg».proof.Proof.FiniteArgs
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: the kernel program's at its term of the launch memory (the four region
    values composed with the host stretches), the reference's at its operations' composed term of arguments that agree. -/
theorem algebraic : Cert.algebraic_KernelIdeal_ReferenceIdeal := by
  intro m ρ m' ρ' hpre hagree
  refine ⟨fun c => Cert.KernelIdeal.HostValue.resultTerm m c, ?_, ?_⟩
  · exact (θ_run Cert.KernelIdeal.defs _ _).mono
      (fun r h c => ⟨(h c).1.trans (Cert.KernelIdeal.HostValue.result_eq m ρ Cert.KernelIdeal.Region0.value Cert.KernelIdeal.Region1.value
          Cert.KernelIdeal.Region2.value Cert.KernelIdeal.Region3.value c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, -⟩ := Cert.KernelIdeal.Finite.args_real m hpre c
    rw [Cert.ReferenceIdeal.Read.val_main_v81_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    exact (Cert.Proof.Bridge.result_is_reference m c h0 h1 h2 h3 h4 h5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
